-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64 : Shape := ⟨2, ![32, 64]⟩
abbrev S32x2048x512 : Shape := ⟨3, ![32, 2048, 512]⟩
abbrev S64x32768 : Shape := ⟨2, ![64, 32768]⟩
abbrev S32768 : Shape := ⟨1, ![32768]⟩
abbrev S64x64 : Shape := ⟨2, ![64, 64]⟩
abbrev S64 : Shape := ⟨1, ![64]⟩
abbrev S64x512 : Shape := ⟨2, ![64, 512]⟩
abbrev S512 : Shape := ⟨1, ![512]⟩
abbrev S_ : Shape := ⟨0, ![]⟩

class Facts : Prop where
  bcast_S_S32x64 : S_.BroadcastsInDim S32x64 (![] : Fin 0 → Fin S32x64.rank)
  reducesTo_S32x64_S_d0_1 : S32x64.ReducesTo [0, 1] S_
  h_S_ : 0 < S_.numel
  bcast_S_S32x2048x512 : S_.BroadcastsInDim S32x2048x512 (![] : Fin 0 → Fin S32x2048x512.rank)
  reducesTo_S32x2048x512_S_d0_1_2 : S32x2048x512.ReducesTo [0, 1, 2] S_
  bcast_S_S64x32768 : S_.BroadcastsInDim S64x32768 (![] : Fin 0 → Fin S64x32768.rank)
  reducesTo_S64x32768_S_d0_1 : S64x32768.ReducesTo [0, 1] S_
  bcast_S_S32768 : S_.BroadcastsInDim S32768 (![] : Fin 0 → Fin S32768.rank)
  reducesTo_S32768_S_d0 : S32768.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x512 : S_.BroadcastsInDim S64x512 (![] : Fin 0 → Fin S64x512.rank)
  reducesTo_S64x512_S_d0_1 : S64x512.ReducesTo [0, 1] S_
  bcast_S_S512 : S_.BroadcastsInDim S512 (![] : Fin 0 → Fin S512.rank)
  reducesTo_S512_S_d0 : S512.ReducesTo [0] S_

variable [Facts]

def fn_part5 {F : FTy → Type} [FloatOps F] (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  main_v88

def fn_part4 {F : FTy → Type} [FloatOps F] (main_arg14 : FVec F S64x512 .f32) (main_arg15 : FVec F S512 .f32) (main_arg16 : FVec F S64x512 .f32) (main_arg17 : FVec F S512 .f32) (main_v63 : IVec S_ 1) (main_v67 : IVec S_ 1) : IVec S_ 1 :=
  let main_v68 : IVec S_ 1 := andi main_v63 main_v67
  let main_v69 : FVec F S64x512 .f32 := Host.absf main_arg14
  let main_cst_26 : FVec F S_ .f32 := constant S_ .f32 0x7F800000#32
  let main_v70 : FVec F S64x512 .f32 := broadcastInDim S64x512 ![] bcast_S_S64x512 main_cst_26
  let main_v71 : IVec S64x512 1 := cmpf .olt main_v69 main_v70
  let main_c_27 : IVec S_ 1 := constantI S_ 1 1#1
  let main_v72 : IVec S_ 1 := (fun x v => Host.reduce IntOp.andi x v reducesTo_S64x512_S_d0_1 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S64x512 .f32 := Host.absf main_arg16
  let main_cst_30 : FVec F S_ .f32 := constant S_ .f32 0x7F800000#32
  let main_v80 : FVec F S64x512 .f32 := broadcastInDim S64x512 ![] bcast_S_S64x512 main_cst_30
  let main_v81 : IVec S64x512 1 := cmpf .olt main_v79 main_v80
  let main_c_31 : IVec S_ 1 := constantI S_ 1 1#1
  let main_v82 : IVec S_ 1 := (fun x v => Host.reduce IntOp.andi x v reducesTo_S64x512_S_d0_1 h_S_) main_v81 main_c_31
  let main_v83 : IVec S_ 1 := andi main_v78 main_v82
  let main_v84 : FVec F S512 .f32 := Host.absf main_arg17
  let main_cst_32 : FVec F S_ .f32 := constant S_ .f32 0x7F800000#32
  fn_part5 (F := F) main_v83 main_v84 main_cst_32

def fn_part3 {F : FTy → Type} [FloatOps F] (main_arg11 : FVec F S512 .f32) (main_arg12 : FVec F S64x512 .f32) (main_arg13 : FVec F S512 .f32) (main_arg14 : FVec F S64x512 .f32) (main_arg15 : FVec F S512 .f32) (main_arg16 : FVec F S64x512 .f32) (main_arg17 : FVec F S512 .f32) (main_v48 : IVec S_ 1) (main_v49 : FVec F S64x512 .f32) (main_v50 : FVec F S64x512 .f32) : IVec S_ 1 :=
  let main_v51 : IVec S64x512 1 := cmpf .olt main_v49 main_v50
  let main_c_19 : IVec S_ 1 := constantI S_ 1 1#1
  let main_v52 : IVec S_ 1 := (fun x v => Host.reduce IntOp.andi x v reducesTo_S64x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S64x512 .f32 := Host.absf main_arg12
  let main_cst_22 : FVec F S_ .f32 := constant S_ .f32 0x7F800000#32
  let main_v60 : FVec F S64x512 .f32 := broadcastInDim S64x512 ![] bcast_S_S64x512 main_cst_22
  let main_v61 : IVec S64x512 1 := cmpf .olt main_v59 main_v60
  let main_c_23 : IVec S_ 1 := constantI S_ 1 1#1
  let main_v62 : IVec S_ 1 := (fun x v => Host.reduce IntOp.andi x v reducesTo_S64x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_arg16 main_arg17 main_v63 main_v67

def fn_part2 {F : FTy → Type} [FloatOps F] (main_arg7 : FVec F S32768 .f32) (main_arg8 : FVec F S64x512 .f32) (main_arg9 : FVec F S512 .f32) (main_arg10 : FVec F S64x512 .f32) (main_arg11 : FVec F S512 .f32) (main_arg12 : FVec F S64x512 .f32) (main_arg13 : FVec F S512 .f32) (main_arg14 : FVec F S64x512 .f32) (main_arg15 : FVec F S512 .f32) (main_arg16 : FVec F S64x512 .f32) (main_arg17 : FVec F S512 .f32) (main_v33 : IVec S_ 1) : IVec S_ 1 :=
  let main_v34 : FVec F S32768 .f32 := Host.absf main_arg7
  let main_cst_12 : FVec F S_ .f32 := constant S_ .f32 0x7F800000#32
  let main_v35 : FVec F S32768 .f32 := broadcastInDim S32768 ![] bcast_S_S32768 main_cst_12
  let main_v36 : IVec S32768 1 := cmpf .olt main_v34 main_v35
  let main_c_13 : IVec S_ 1 := constantI S_ 1 1#1
  let main_v37 : IVec S_ 1 := (fun x v => Host.reduce IntOp.andi x v reducesTo_S32768_S_d0 h_S_) main_v36 main_c_13
  let main_v38 : IVec S_ 1 := andi main_v33 main_v37
  let main_v39 : FVec F S64x512 .f32 := Host.absf main_arg8
  let main_cst_14 : FVec F S_ .f32 := constant S_ .f32 0x7F800000#32
  let main_v40 : FVec F S64x512 .f32 := broadcastInDim S64x512 ![] bcast_S_S64x512 main_cst_14
  let main_v41 : IVec S64x512 1 := cmpf .olt main_v39 main_v40
  let main_c_15 : IVec S_ 1 := constantI S_ 1 1#1
  let main_v42 : IVec S_ 1 := (fun x v => Host.reduce IntOp.andi x v reducesTo_S64x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S64x512 .f32 := Host.absf main_arg10
  let main_cst_18 : FVec F S_ .f32 := constant S_ .f32 0x7F800000#32
  let main_v50 : FVec F S64x512 .f32 := broadcastInDim S64x512 ![] bcast_S_S64x512 main_cst_18
  fn_part3 (F := F) main_arg11 main_arg12 main_arg13 main_arg14 main_arg15 main_arg16 main_arg17 main_v48 main_v49 main_v50

def fn_part1 {F : FTy → Type} [FloatOps F] (main_arg4 : FVec F S64x64 .f32) (main_arg5 : FVec F S64 .f32) (main_arg6 : FVec F S64x32768 .f32) (main_arg7 : FVec F S32768 .f32) (main_arg8 : FVec F S64x512 .f32) (main_arg9 : FVec F S512 .f32) (main_arg10 : FVec F S64x512 .f32) (main_arg11 : FVec F S512 .f32) (main_arg12 : FVec F S64x512 .f32) (main_arg13 : FVec F S512 .f32) (main_arg14 : FVec F S64x512 .f32) (main_arg15 : FVec F S512 .f32) (main_arg16 : FVec F S64x512 .f32) (main_arg17 : FVec F S512 .f32) (main_v13 : IVec S_ 1) (main_v16 : IVec S32768 1) : IVec S_ 1 :=
  let main_c_5 : IVec S_ 1 := constantI S_ 1 1#1
  let main_v17 : IVec S_ 1 := (fun x v => Host.reduce IntOp.andi x v reducesTo_S32768_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32768 .f32 := Host.absf main_arg6
  let main_cst_10 : FVec F S_ .f32 := constant S_ .f32 0x7F800000#32
  let main_v30 : FVec F S64x32768 .f32 := broadcastInDim S64x32768 ![] bcast_S_S64x32768 main_cst_10
  let main_v31 : IVec S64x32768 1 := cmpf .olt main_v29 main_v30
  let main_c_11 : IVec S_ 1 := constantI S_ 1 1#1
  let main_v32 : IVec S_ 1 := (fun x v => Host.reduce IntOp.andi x v reducesTo_S64x32768_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S32x64 .f32) (main_arg1 : FVec F S32x2048x512 .f32) (main_arg2 : FVec F S64x32768 .f32) (main_arg3 : FVec F S32768 .f32) (main_arg4 : FVec F S64x64 .f32) (main_arg5 : FVec F S64 .f32) (main_arg6 : FVec F S64x32768 .f32) (main_arg7 : FVec F S32768 .f32) (main_arg8 : FVec F S64x512 .f32) (main_arg9 : FVec F S512 .f32) (main_arg10 : FVec F S64x512 .f32) (main_arg11 : FVec F S512 .f32) (main_arg12 : FVec F S64x512 .f32) (main_arg13 : FVec F S512 .f32) (main_arg14 : FVec F S64x512 .f32) (main_arg15 : FVec F S512 .f32) (main_arg16 : FVec F S64x512 .f32) (main_arg17 : FVec F S512 .f32) : IVec S_ 1 :=
  let main_v0 : FVec F S32x64 .f32 := Host.absf main_arg0
  let main_cst : FVec F S_ .f32 := constant S_ .f32 0x7F800000#32
  let main_v1 : FVec F S32x64 .f32 := broadcastInDim S32x64 ![] bcast_S_S32x64 main_cst
  let main_v2 : IVec S32x64 1 := cmpf .olt main_v0 main_v1
  let main_c : IVec S_ 1 := constantI S_ 1 1#1
  let main_v3 : IVec S_ 1 := (fun x v => Host.reduce IntOp.andi x v reducesTo_S32x64_S_d0_1 h_S_) main_v2 main_c
  let main_v4 : FVec F S32x2048x512 .f32 := Host.absf main_arg1
  let main_cst_0 : FVec F S_ .f32 := constant S_ .f32 0x7F800000#32
  let main_v5 : FVec F S32x2048x512 .f32 := broadcastInDim S32x2048x512 ![] bcast_S_S32x2048x512 main_cst_0
  let main_v6 : IVec S32x2048x512 1 := cmpf .olt main_v4 main_v5
  let main_c_1 : IVec S_ 1 := constantI S_ 1 1#1
  let main_v7 : IVec S_ 1 := (fun x v => Host.reduce IntOp.andi x v reducesTo_S32x2048x512_S_d0_1_2 h_S_) main_v6 main_c_1
  let main_v8 : IVec S_ 1 := andi main_v3 main_v7
  let main_v9 : FVec F S64x32768 .f32 := Host.absf main_arg2
  let main_cst_2 : FVec F S_ .f32 := constant S_ .f32 0x7F800000#32
  let main_v10 : FVec F S64x32768 .f32 := broadcastInDim S64x32768 ![] bcast_S_S64x32768 main_cst_2
  let main_v11 : IVec S64x32768 1 := cmpf .olt main_v9 main_v10
  let main_c_3 : IVec S_ 1 := constantI S_ 1 1#1
  let main_v12 : IVec S_ 1 := (fun x v => Host.reduce IntOp.andi x v reducesTo_S64x32768_S_d0_1 h_S_) main_v11 main_c_3
  let main_v13 : IVec S_ 1 := andi main_v8 main_v12
  let main_v14 : FVec F S32768 .f32 := Host.absf main_arg3
  let main_cst_4 : FVec F S_ .f32 := constant S_ .f32 0x7F800000#32
  let main_v15 : FVec F S32768 .f32 := broadcastInDim S32768 ![] bcast_S_S32768 main_cst_4
  let main_v16 : IVec S32768 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S32x64 : Shape := ⟨2, ![32, 64]⟩
abbrev S32x2048x512 : Shape := ⟨3, ![32, 2048, 512]⟩
abbrev S64x32768 : Shape := ⟨2, ![64, 32768]⟩
abbrev S32768 : Shape := ⟨1, ![32768]⟩
abbrev S64x64 : Shape := ⟨2, ![64, 64]⟩
abbrev S64 : Shape := ⟨1, ![64]⟩
abbrev S64x512 : Shape := ⟨2, ![64, 512]⟩
abbrev S512 : Shape := ⟨1, ![512]⟩
abbrev S32x32768 : Shape := ⟨2, ![32, 32768]⟩
abbrev S1x32768 : Shape := ⟨2, ![1, 32768]⟩
abbrev S32x64x512 : Shape := ⟨3, ![32, 64, 512]⟩
abbrev S1x64 : Shape := ⟨2, ![1, 64]⟩
abbrev S32x512x64 : Shape := ⟨3, ![32, 512, 64]⟩
abbrev S32x512 : Shape := ⟨2, ![32, 512]⟩
abbrev S1x512 : Shape := ⟨2, ![1, 512]⟩
abbrev S_ : Shape := ⟨0, ![]⟩
abbrev S32x1x512 : Shape := ⟨3, ![32, 1, 512]⟩
abbrev S32x8x512 : Shape := ⟨3, ![32, 8, 512]⟩
abbrev S1x1024x512 : Shape := ⟨3, ![1, 1024, 512]⟩
abbrev S1x64x512 : Shape := ⟨3, ![1, 64, 512]⟩
abbrev S1x512x64 : Shape := ⟨3, ![1, 512, 64]⟩
abbrev S1x8x512 : Shape := ⟨3, ![1, 8, 512]⟩
abbrev S1024x512 : Shape := ⟨2, ![1024, 512]⟩
abbrev S8x512 : Shape := ⟨2, ![8, 512]⟩
abbrev S1024 : Shape := ⟨1, ![1024]⟩
abbrev S1024x1 : Shape := ⟨2, ![1024, 1]⟩
abbrev S1024x64 : Shape := ⟨2, ![1024, 64]⟩
abbrev S512x64 : Shape := ⟨2, ![512, 64]⟩

abbrev nBuf : Space → Nat
  | .hbm => 69
  | .vmem => 10
  | .smem => 0
  | _ => 0

abbrev bufTy : (tb : Table) → Fin (tcTables nBuf tb) → BufTy
  | .hbm, ⟨0, _⟩ => ⟨S32x64, .f32⟩
  | .hbm, ⟨1, _⟩ => ⟨S32x2048x512, .f32⟩
  | .hbm, ⟨2, _⟩ => ⟨S64x32768, .f32⟩
  | .hbm, ⟨3, _⟩ => ⟨S32768, .f32⟩
  | .hbm, ⟨4, _⟩ => ⟨S64x64, .f32⟩
  | .hbm, ⟨5, _⟩ => ⟨S64, .f32⟩
  | .hbm, ⟨6, _⟩ => ⟨S64x32768, .f32⟩
  | .hbm, ⟨7, _⟩ => ⟨S32768, .f32⟩
  | .hbm, ⟨8, _⟩ => ⟨S64x512, .f32⟩
  | .hbm, ⟨9, _⟩ => ⟨S512, .f32⟩
  | .hbm, ⟨10, _⟩ => ⟨S64x512, .f32⟩
  | .hbm, ⟨11, _⟩ => ⟨S512, .f32⟩
  | .hbm, ⟨12, _⟩ => ⟨S64x512, .f32⟩
  | .hbm, ⟨13, _⟩ => ⟨S512, .f32⟩
  | .hbm, ⟨14, _⟩ => ⟨S64x512, .f32⟩
  | .hbm, ⟨15, _⟩ => ⟨S512, .f32⟩
  | .hbm, ⟨16, _⟩ => ⟨S64x512, .f32⟩
  | .hbm, ⟨17, _⟩ => ⟨S512, .f32⟩
  | .hbm, ⟨18, _⟩ => ⟨S32x32768, .f32⟩
  | .hbm, ⟨19, _⟩ => ⟨S1x32768, .f32⟩
  | .hbm, ⟨20, _⟩ => ⟨S32x32768, .f32⟩
  | .hbm, ⟨21, _⟩ => ⟨S32x32768, .f32⟩
  | .hbm, ⟨22, _⟩ => ⟨S32x64x512, .f32⟩
  | .hbm, ⟨23, _⟩ => ⟨S32x64x512, .bf16⟩
  | .hbm, ⟨24, _⟩ => ⟨S32x64, .f32⟩
  | .hbm, ⟨25, _⟩ => ⟨S1x64, .f32⟩
  | .hbm, ⟨26, _⟩ => ⟨S32x64, .f32⟩
  | .hbm, ⟨27, _⟩ => ⟨S32x64, .f32⟩
  | .hbm, ⟨28, _⟩ => ⟨S32x32768, .f32⟩
  | .hbm, ⟨29, _⟩ => ⟨S1x32768, .f32⟩
  | .hbm, ⟨30, _⟩ => ⟨S32x32768, .f32⟩
  | .hbm, ⟨31, _⟩ => ⟨S32x32768, .f32⟩
  | .hbm, ⟨32, _⟩ => ⟨S32x512x64, .f32⟩
  | .hbm, ⟨33, _⟩ => ⟨S32x512x64, .bf16⟩
  | .hbm, ⟨34, _⟩ => ⟨S32x512, .f32⟩
  | .hbm, ⟨35, _⟩ => ⟨S1x512, .f32⟩
  | .hbm, ⟨36, _⟩ => ⟨S32x512, .f32⟩
  | .hbm, ⟨37, _⟩ => ⟨S32x512, .f32⟩
  | .hbm, ⟨38, _⟩ => ⟨S32x512, .f32⟩
  | .hbm, ⟨39, _⟩ => ⟨S1x512, .f32⟩
  | .hbm, ⟨40, _⟩ => ⟨S32x512, .f32⟩
  | .hbm, ⟨41, _⟩ => ⟨S32x512, .f32⟩
  | .hbm, ⟨42, _⟩ => ⟨S32x512, .f32⟩
  | .hbm, ⟨43, _⟩ => ⟨S1x512, .f32⟩
  | .hbm, ⟨44, _⟩ => ⟨S32x512, .f32⟩
  | .hbm, ⟨45, _⟩ => ⟨S32x512, .f32⟩
  | .hbm, ⟨46, _⟩ => ⟨S32x512, .f32⟩
  | .hbm, ⟨47, _⟩ => ⟨S1x512, .f32⟩
  | .hbm, ⟨48, _⟩ => ⟨S32x512, .f32⟩
  | .hbm, ⟨49, _⟩ => ⟨S32x512, .f32⟩
  | .hbm, ⟨50, _⟩ => ⟨S32x512, .f32⟩
  | .hbm, ⟨51, _⟩ => ⟨S1x512, .f32⟩
  | .hbm, ⟨52, _⟩ => ⟨S32x512, .f32⟩
  | .hbm, ⟨53, _⟩ => ⟨S32x512, .f32⟩
  | .hbm, ⟨54, _⟩ => ⟨S_, .i32⟩
  | .hbm, ⟨55, _⟩ => ⟨S_, .f32⟩
  | .hbm, ⟨56, _⟩ => ⟨S32x512, .f32⟩
  | .hbm, ⟨57, _⟩ => ⟨S_, .f32⟩
  | .hbm, ⟨58, _⟩ => ⟨S32x512, .f32⟩
  | .hbm, ⟨59, _⟩ => ⟨S32x1x512, .f32⟩
  | .hbm, ⟨60, _⟩ => ⟨S32x1x512, .f32⟩
  | .hbm, ⟨61, _⟩ => ⟨S32x1x512, .f32⟩
  | .hbm, ⟨62, _⟩ => ⟨S32x1x512, .f32⟩
  | .hbm, ⟨63, _⟩ => ⟨S32x1x512, .f32⟩
  | .hbm, ⟨64, _⟩ => ⟨S32x1x512, .f32⟩
  | .hbm, ⟨65, _⟩ => ⟨S32x1x512, .f32⟩
  | .hbm, ⟨66, _⟩ => ⟨S32x1x512, .f32⟩
  | .hbm, ⟨67, _⟩ => ⟨S32x8x512, .f32⟩
  | .hbm, ⟨68, _⟩ => ⟨S32x2048x512, .f32⟩
  | .local _ .vmem, ⟨0, _⟩ => ⟨S1x1024x512, .f32⟩
  | .local _ .vmem, ⟨1, _⟩ => ⟨S1x1024x512, .f32⟩
  | .local _ .vmem, ⟨2, _⟩ => ⟨S1x64x512, .bf16⟩
  | .local _ .vmem, ⟨3, _⟩ => ⟨S1x64x512, .bf16⟩
  | .local _ .vmem, ⟨4, _⟩ => ⟨S1x512x64, .bf16⟩
  | .local _ .vmem, ⟨5, _⟩ => ⟨S1x512x64, .bf16⟩
  | .local _ .vmem, ⟨6, _⟩ => ⟨S1x8x512, .f32⟩
  | .local _ .vmem, ⟨7, _⟩ => ⟨S1x8x512, .f32⟩
  | .local _ .vmem, ⟨8, _⟩ => ⟨S1x1024x512, .f32⟩
  | .local _ .vmem, ⟨9, _⟩ => ⟨S1x1024x512, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c : Ref sig .tc := ⟨.hbm, 54, rfl⟩
abbrev main_call0_v0 : Ref sig .tc := ⟨.hbm, 55, rfl⟩
abbrev main_v36 : Ref sig .tc := ⟨.hbm, 56, rfl⟩
abbrev main_cst : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S32768_S1x32768_1 : S32768.BroadcastsInDim S1x32768 (![1] : Fin 1 → Fin S1x32768.rank)
  bcast_S1x32768_S32x32768_0_1 : S1x32768.BroadcastsInDim S32x32768 (![0, 1] : Fin 2 → Fin S32x32768.rank)
  shapeCasts_S32x32768_S32x64x512 : S32x32768.ShapeCasts S32x64x512
  bitsLt_bf16_f32 : FTy.bits .bf16 < FTy.bits .f32
  bcast_S64_S1x64_1 : S64.BroadcastsInDim S1x64 (![1] : Fin 1 → Fin S1x64.rank)
  bcast_S1x64_S32x64_0_1 : S1x64.BroadcastsInDim S32x64 (![0, 1] : Fin 2 → Fin S32x64.rank)
  shapeCasts_S32x32768_S32x512x64 : S32x32768.ShapeCasts S32x512x64
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  pads_S32x64_S32x512_000_04480 : S32x64.Pads (![0, 0] : Fin 2 → Nat) ![0, 448] ![0, 0] S32x512
  h_S_ : 0 < S_.numel
  bcast_S_S32x512 : S_.BroadcastsInDim S32x512 (![] : Fin 0 → Fin S32x512.rank)
  bcast_S32x512_S32x1x512_0_2 : S32x512.BroadcastsInDim S32x1x512 (![0, 2] : Fin 2 → Fin S32x1x512.rank)
  concatenates_S32x1x512_S32x1x512_S32x1x512_S32x1x512_S32x1x512_S32x1x512_S32x1x512_S32x1x512_S32x8x512_d1 : Shape.Concatenates [S32x1x512, S32x1x512, S32x1x512, S32x1x512, S32x1x512, S32x1x512, S32x1x512, S32x1x512] S32x8x512 1
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x8x512_S1x8x512_0_0_0 : ∀ a, (![0, 0, 0] : Fin 3 → Nat) a + S1x8x512.size a ≤ S1x8x512.size a
  h_S1x8x512 : 0 < S1x8x512.numel
  shapeCasts_S1x8x512_S8x512 : S1x8x512.ShapeCasts S8x512
  slices_S8x512_o0_0_S1x64 : S8x512.Slices ![0, 0] S1x64
  slices_S8x512_o1_0_S1x512 : S8x512.Slices ![1, 0] S1x512
  slices_S8x512_o2_0_S1x512 : S8x512.Slices ![2, 0] S1x512
  slices_S8x512_o3_0_S1x512 : S8x512.Slices ![3, 0] S1x512
  slices_S8x512_o4_0_S1x512 : S8x512.Slices ![4, 0] S1x512
  slices_S8x512_o5_0_S1x512 : S8x512.Slices ![5, 0] S1x512
  reduces_S1024x512_S1024 : S1024x512.Reduces [1] S1024
  shapeCasts_S1024_S1024x1 : S1024.ShapeCasts S1024x1
  broadcasts_S1024x1_S1024x512 : S1024x1.Broadcasts S1024x512
  broadcasts_S1x512_S1024x512 : S1x512.Broadcasts S1024x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  broadcasts_S1x64_S1024x64 : S1x64.Broadcasts S1024x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S1024x512_S1x1024x512 : S1024x512.ShapeCasts S1x1024x512
  dot_S32x64_S64x32768_S32x32768_1_0_0_1_n_n_wf : DotDims.WF S32x64 S64x32768 S32x32768 [1] [0] [0] [1] [] []
  dot_S32x64_S64x64_S32x64_1_0_0_1_n_n_wf : DotDims.WF S32x64 S64x64 S32x64 [1] [0] [0] [1] [] []
  dot_S32x64_S64x512_S32x512_1_0_0_1_n_n_wf : DotDims.WF S32x64 S64x512 S32x512 [1] [0] [0] [1] [] []
  dot_S1024x512_S64x512_S1024x64_1_1_0_0_n_n_wf : DotDims.WF S1024x512 S64x512 S1024x64 [1] [1] [0] [0] [] []
  dot_S1024x64_S512x64_S1024x512_1_1_0_0_n_n_wf : DotDims.WF S1024x64 S512x64 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S32x2048x512.size a
  hwx0_0 : ∀ i : grid0.Coords, EltTy.bits .f32 = 32 ∨ (Rect.block (s := S32x2048x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S32x64x512.size a
  hwx0_1 : ∀ i : grid0.Coords, EltTy.bits .bf16 = 32 ∨ (Rect.block (s := S32x64x512) S1x64x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x64.size a ≤ S32x512x64.size a
  hwx0_2 : ∀ i : grid0.Coords, EltTy.bits .bf16 = 32 ∨ (Rect.block (s := S32x512x64) S1x512x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x512.size a ≤ S32x8x512.size a
  hwx0_3 : ∀ i : grid0.Coords, EltTy.bits .f32 = 32 ∨ (Rect.block (s := S32x8x512) S1x8x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x512.size a ≤ S32x2048x512.size a
  hwx0_4 : ∀ i : grid0.Coords, EltTy.bits .f32 = 32 ∨ (Rect.block (s := S32x2048x512) S1x1024x512.size (cc0_transform_4 i) (hinb0_4 i)).WholeWords (EltTy.packing .f32)

variable [Facts₀]

def dot_S32x64_S64x32768_S32x32768_1_0_0_1_n_n : DotDims S32x64 S64x32768 S32x32768 where
  lhsContracting := [1]
  rhsContracting := [0]
  lhsNonContracting := [0]
  rhsNonContracting := [1]
  lhsBatch := []
  rhsBatch := []
  wf := dot_S32x64_S64x32768_S32x32768_1_0_0_1_n_n_wf
def dot_S32x64_S64x64_S32x64_1_0_0_1_n_n : DotDims S32x64 S64x64 S32x64 where
  lhsContracting := [1]
  rhsContracting := [0]
  lhsNonContracting := [0]
  rhsNonContracting := [1]
  lhsBatch := []
  rhsBatch := []
  wf := dot_S32x64_S64x64_S32x64_1_0_0_1_n_n_wf
def dot_S32x64_S64x512_S32x512_1_0_0_1_n_n : DotDims S32x64 S64x512 S32x512 where
  lhsContracting := [1]
  rhsContracting := [0]
  lhsNonContracting := [0]
  rhsNonContracting := [1]
  lhsBatch := []
  rhsBatch := []
  wf := dot_S32x64_S64x512_S32x512_1_0_0_1_n_n_wf
def dot_S1024x512_S64x512_S1024x64_1_1_0_0_n_n : DotDims S1024x512 S64x512 S1024x64 where
  lhsContracting := [1]
  rhsContracting := [1]
  lhsNonContracting := [0]
  rhsNonContracting := [0]
  lhsBatch := []
  rhsBatch := []
  wf := dot_S1024x512_S64x512_S1024x64_1_1_0_0_n_n_wf
def dot_S1024x64_S512x64_S1024x512_1_1_0_0_n_n : DotDims S1024x64 S512x64 S1024x512 where
  lhsContracting := [1]
  rhsContracting := [1]
  lhsNonContracting := [0]
  rhsNonContracting := [0]
  lhsBatch := []
  rhsBatch := []
  wf := dot_S1024x64_S512x64_S1024x512_1_1_0_0_n_n_wf

abbrev win0_0 : Pipeline.Window sig grid0 :=
  Pipeline.Window.ofSpec (Memref.whole main_arg1) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v46) S1x8x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v47) S1x1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x64 : Shape := ⟨2, ![32, 64]⟩
abbrev S32x2048x512 : Shape := ⟨3, ![32, 2048, 512]⟩
abbrev S64x32768 : Shape := ⟨2, ![64, 32768]⟩
abbrev S32768 : Shape := ⟨1, ![32768]⟩
abbrev S64x64 : Shape := ⟨2, ![64, 64]⟩
abbrev S64 : Shape := ⟨1, ![64]⟩
abbrev S64x512 : Shape := ⟨2, ![64, 512]⟩
abbrev S512 : Shape := ⟨1, ![512]⟩
abbrev S32x32768 : Shape := ⟨2, ![32, 32768]⟩
abbrev S1x32768 : Shape := ⟨2, ![1, 32768]⟩
abbrev S32x64x512 : Shape := ⟨3, ![32, 64, 512]⟩
abbrev S1x64 : Shape := ⟨2, ![1, 64]⟩
abbrev S32x512x64 : Shape := ⟨3, ![32, 512, 64]⟩
abbrev S32x512 : Shape := ⟨2, ![32, 512]⟩
abbrev S1x512 : Shape := ⟨2, ![1, 512]⟩
abbrev S_ : Shape := ⟨0, ![]⟩
abbrev S32x2048 : Shape := ⟨2, ![32, 2048]⟩
abbrev S32x2048x1 : Shape := ⟨3, ![32, 2048, 1]⟩
abbrev S32x1x512 : Shape := ⟨3, ![32, 1, 512]⟩
abbrev S32x2048x64 : Shape := ⟨3, ![32, 2048, 64]⟩
abbrev S32x1x64 : Shape := ⟨3, ![32, 1, 64]⟩

abbrev nBuf : Space → Nat
  | .hbm => 122
  | .vmem => 0
  | .smem => 0
  | _ => 0

abbrev bufTy : (tb : Table) → Fin (tcTables nBuf tb) → BufTy
  | .hbm, ⟨0, _⟩ => ⟨S32x64, .f32⟩
  | .hbm, ⟨1, _⟩ => ⟨S32x2048x512, .f32⟩
  | .hbm, ⟨2, _⟩ => ⟨S64x32768, .f32⟩
  | .hbm, ⟨3, _⟩ => ⟨S32768, .f32⟩
  | .hbm, ⟨4, _⟩ => ⟨S64x64, .f32⟩
  | .hbm, ⟨5, _⟩ => ⟨S64, .f32⟩
  | .hbm, ⟨6, _⟩ => ⟨S64x32768, .f32⟩
  | .hbm, ⟨7, _⟩ => ⟨S32768, .f32⟩
  | .hbm, ⟨8, _⟩ => ⟨S64x512, .f32⟩
  | .hbm, ⟨9, _⟩ => ⟨S512, .f32⟩
  | .hbm, ⟨10, _⟩ => ⟨S64x512, .f32⟩
  | .hbm, ⟨11, _⟩ => ⟨S512, .f32⟩
  | .hbm, ⟨12, _⟩ => ⟨S64x512, .f32⟩
  | .hbm, ⟨13, _⟩ => ⟨S512, .f32⟩
  | .hbm, ⟨14, _⟩ => ⟨S64x512, .f32⟩
  | .hbm, ⟨15, _⟩ => ⟨S512, .f32⟩
  | .hbm, ⟨16, _⟩ => ⟨S64x512, .f32⟩
  | .hbm, ⟨17, _⟩ => ⟨S512, .f32⟩
  | .hbm, ⟨18, _⟩ => ⟨S32x32768, .f32⟩
  | .hbm, ⟨19, _⟩ => ⟨S1x32768, .f32⟩
  | .hbm, ⟨20, _⟩ => ⟨S32x32768, .f32⟩
  | .hbm, ⟨21, _⟩ => ⟨S32x32768, .f32⟩
  | .hbm, ⟨22, _⟩ => ⟨S32x64x512, .f32⟩
  | .hbm, ⟨23, _⟩ => ⟨S32x64, .f32⟩
  | .hbm, ⟨24, _⟩ => ⟨S1x64, .f32⟩
  | .hbm, ⟨25, _⟩ => ⟨S32x64, .f32⟩
  | .hbm, ⟨26, _⟩ => ⟨S32x64, .f32⟩
  | .hbm, ⟨27, _⟩ => ⟨S32x32768, .f32⟩
  | .hbm, ⟨28, _⟩ => ⟨S1x32768, .f32⟩
  | .hbm, ⟨29, _⟩ => ⟨S32x32768, .f32⟩
  | .hbm, ⟨30, _⟩ => ⟨S32x32768, .f32⟩
  | .hbm, ⟨31, _⟩ => ⟨S32x512x64, .f32⟩
  | .hbm, ⟨32, _⟩ => ⟨S32x512, .f32⟩
  | .hbm, ⟨33, _⟩ => ⟨S1x512, .f32⟩
  | .hbm, ⟨34, _⟩ => ⟨S32x512, .f32⟩
  | .hbm, ⟨35, _⟩ => ⟨S32x512, .f32⟩
  | .hbm, ⟨36, _⟩ => ⟨S32x512, .f32⟩
  | .hbm, ⟨37, _⟩ => ⟨S1x512, .f32⟩
  | .hbm, ⟨38, _⟩ => ⟨S32x512, .f32⟩
  | .hbm, ⟨39, _⟩ => ⟨S32x512, .f32⟩
  | .hbm, ⟨40, _⟩ => ⟨S32x512, .f32⟩
  | .hbm, ⟨41, _⟩ => ⟨S1x512, .f32⟩
  | .hbm, ⟨42, _⟩ => ⟨S32x512, .f32⟩
  | .hbm, ⟨43, _⟩ => ⟨S32x512, .f32⟩
  | .hbm, ⟨44, _⟩ => ⟨S_, .f32⟩
  | .hbm, ⟨45, _⟩ => ⟨S32x2048, .f32⟩
  | .hbm, ⟨46, _⟩ => ⟨S32x2048x1, .f32⟩
  | .hbm, ⟨47, _⟩ => ⟨S_, .f32⟩
  | .hbm, ⟨48, _⟩ => ⟨S32x2048x1, .f32⟩
  | .hbm, ⟨49, _⟩ => ⟨S32x2048x1, .f32⟩
  | .hbm, ⟨50, _⟩ => ⟨S32x2048x512, .f32⟩
  | .hbm, ⟨51, _⟩ => ⟨S32x2048x512, .f32⟩
  | .hbm, ⟨52, _⟩ => ⟨S32x2048x512, .f32⟩
  | .hbm, ⟨53, _⟩ => ⟨S_, .f32⟩
  | .hbm, ⟨54, _⟩ => ⟨S32x2048, .f32⟩
  | .hbm, ⟨55, _⟩ => ⟨S32x2048x1, .f32⟩
  | .hbm, ⟨56, _⟩ => ⟨S_, .f32⟩
  | .hbm, ⟨57, _⟩ => ⟨S32x2048x1, .f32⟩
  | .hbm, ⟨58, _⟩ => ⟨S32x2048x1, .f32⟩
  | .hbm, ⟨59, _⟩ => ⟨S_, .f32⟩
  | .hbm, ⟨60, _⟩ => ⟨S32x2048x1, .f32⟩
  | .hbm, ⟨61, _⟩ => ⟨S32x2048x1, .f32⟩
  | .hbm, ⟨62, _⟩ => ⟨S32x2048x512, .f32⟩
  | .hbm, ⟨63, _⟩ => ⟨S32x2048x512, .f32⟩
  | .hbm, ⟨64, _⟩ => ⟨S32x2048x1, .f32⟩
  | .hbm, ⟨65, _⟩ => ⟨S32x2048x512, .f32⟩
  | .hbm, ⟨66, _⟩ => ⟨S32x2048x512, .f32⟩
  | .hbm, ⟨67, _⟩ => ⟨S32x1x512, .f32⟩
  | .hbm, ⟨68, _⟩ => ⟨S32x2048x512, .f32⟩
  | .hbm, ⟨69, _⟩ => ⟨S32x2048x512, .f32⟩
  | .hbm, ⟨70, _⟩ => ⟨S32x1x512, .f32⟩
  | .hbm, ⟨71, _⟩ => ⟨S32x2048x512, .f32⟩
  | .hbm, ⟨72, _⟩ => ⟨S32x2048x512, .f32⟩
  | .hbm, ⟨73, _⟩ => ⟨S32x2048x64, .f32⟩
  | .hbm, ⟨74, _⟩ => ⟨S32x1x64, .f32⟩
  | .hbm, ⟨75, _⟩ => ⟨S32x2048x64, .f32⟩
  | .hbm, ⟨76, _⟩ => ⟨S32x2048x64, .f32⟩
  | .hbm, ⟨77, _⟩ => ⟨S_, .f32⟩
  | .hbm, ⟨78, _⟩ => ⟨S32x2048x64, .f32⟩
  | .hbm, ⟨79, _⟩ => ⟨S32x2048x64, .f32⟩
  | .hbm, ⟨80, _⟩ => ⟨S32x2048x512, .f32⟩
  | .hbm, ⟨81, _⟩ => ⟨S32x1x512, .f32⟩
  | .hbm, ⟨82, _⟩ => ⟨S32x2048x512, .f32⟩
  | .hbm, ⟨83, _⟩ => ⟨S32x2048x512, .f32⟩
  | .hbm, ⟨84, _⟩ => ⟨S32x512, .f32⟩
  | .hbm, ⟨85, _⟩ => ⟨S1x512, .f32⟩
  | .hbm, ⟨86, _⟩ => ⟨S32x512, .f32⟩
  | .hbm, ⟨87, _⟩ => ⟨S32x512, .f32⟩
  | .hbm, ⟨88, _⟩ => ⟨S32x512, .f32⟩
  | .hbm, ⟨89, _⟩ => ⟨S1x512, .f32⟩
  | .hbm, ⟨90, _⟩ => ⟨S32x512, .f32⟩
  | .hbm, ⟨91, _⟩ => ⟨S32x512, .f32⟩
  | .hbm, ⟨92, _⟩ => ⟨S_, .f32⟩
  | .hbm, ⟨93, _⟩ => ⟨S32x2048, .f32⟩
  | .hbm, ⟨94, _⟩ => ⟨S32x2048x1, .f32⟩
  | .hbm, ⟨95, _⟩ => ⟨S_, .f32⟩
  | .hbm, ⟨96, _⟩ => ⟨S32x2048x1, .f32⟩
  | .hbm, ⟨97, _⟩ => ⟨S32x2048x1, .f32⟩
  | .hbm, ⟨98, _⟩ => ⟨S32x2048x512, .f32⟩
  | .hbm, ⟨99, _⟩ => ⟨S32x2048x512, .f32⟩
  | .hbm, ⟨100, _⟩ => ⟨S32x2048x512, .f32⟩
  | .hbm, ⟨101, _⟩ => ⟨S_, .f32⟩
  | .hbm, ⟨102, _⟩ => ⟨S32x2048, .f32⟩
  | .hbm, ⟨103, _⟩ => ⟨S32x2048x1, .f32⟩
  | .hbm, ⟨104, _⟩ => ⟨S_, .f32⟩
  | .hbm, ⟨105, _⟩ => ⟨S32x2048x1, .f32⟩
  | .hbm, ⟨106, _⟩ => ⟨S32x2048x1, .f32⟩
  | .hbm, ⟨107, _⟩ => ⟨S_, .f32⟩
  | .hbm, ⟨108, _⟩ => ⟨S32x2048x1, .f32⟩
  | .hbm, ⟨109, _⟩ => ⟨S32x2048x1, .f32⟩
  | .hbm, ⟨110, _⟩ => ⟨S32x2048x512, .f32⟩
  | .hbm, ⟨111, _⟩ => ⟨S32x2048x512, .f32⟩
  | .hbm, ⟨112, _⟩ => ⟨S32x2048x1, .f32⟩
  | .hbm, ⟨113, _⟩ => ⟨S32x2048x512, .f32⟩
  | .hbm, ⟨114, _⟩ => ⟨S32x2048x512, .f32⟩
  | .hbm, ⟨115, _⟩ => ⟨S32x1x512, .f32⟩
  | .hbm, ⟨116, _⟩ => ⟨S32x2048x512, .f32⟩
  | .hbm, ⟨117, _⟩ => ⟨S32x2048x512, .f32⟩
  | .hbm, ⟨118, _⟩ => ⟨S32x1x512, .f32⟩
  | .hbm, ⟨119, _⟩ => ⟨S32x2048x512, .f32⟩
  | .hbm, ⟨120, _⟩ => ⟨S32x2048x512, .f32⟩
  | .hbm, ⟨121, _⟩ => ⟨S32x2048x512, .f32⟩
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst : Ref sig .tc := ⟨.hbm, 44, rfl⟩
abbrev main_v26 : Ref sig .tc := ⟨.hbm, 45, rfl⟩
abbrev main_v27 : Ref sig .tc := ⟨.hbm, 46, rfl⟩
abbrev main_cst_0 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_1 : Ref sig .tc := ⟨.hbm, 53, rfl⟩
abbrev main_v33 : Ref sig .tc := ⟨.hbm, 54, rfl⟩
abbrev main_v34 : Ref sig .tc := ⟨.hbm, 55, rfl⟩
abbrev main_cst_2 : Ref sig .tc := ⟨.hbm, 56, rfl⟩
abbrev main_v35 : Ref sig .tc := ⟨.hbm, 57, rfl⟩
abbrev main_v36 : Ref sig .tc := ⟨.hbm, 58, rfl⟩
abbrev main_cst_3 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call0_cst : Ref sig .tc := ⟨.hbm, 77, rfl⟩
abbrev main_call0_v0 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_4 : Ref sig .tc := ⟨.hbm, 92, rfl⟩
abbrev main_v67 : Ref sig .tc := ⟨.hbm, 93, rfl⟩
abbrev main_v68 : Ref sig .tc := ⟨.hbm, 94, rfl⟩
abbrev main_cst_5 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_6 : Ref sig .tc := ⟨.hbm, 101, rfl⟩
abbrev main_v74 : Ref sig .tc := ⟨.hbm, 102, rfl⟩
abbrev main_v75 : Ref sig .tc := ⟨.hbm, 103, rfl⟩
abbrev main_cst_7 : Ref sig .tc := ⟨.hbm, 104, rfl⟩
abbrev main_v76 : Ref sig .tc := ⟨.hbm, 105, rfl⟩
abbrev main_v77 : Ref sig .tc := ⟨.hbm, 106, rfl⟩
abbrev main_cst_8 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩

abbrev nD : Nat := 1
abbrev τ : Topo := Topo.v7x

variable {F : FTy → Type} [FloatOps F]

class Facts₀ : Prop where
  bcast_S32768_S1x32768_1 : S32768.BroadcastsInDim S1x32768 (![1] : Fin 1 → Fin S1x32768.rank)
  bcast_S1x32768_S32x32768_0_1 : S1x32768.BroadcastsInDim S32x32768 (![0, 1] : Fin 2 → Fin S32x32768.rank)
  shapeCasts_S32x32768_S32x64x512 : S32x32768.ShapeCasts S32x64x512
  bcast_S64_S1x64_1 : S64.BroadcastsInDim S1x64 (![1] : Fin 1 → Fin S1x64.rank)
  bcast_S1x64_S32x64_0_1 : S1x64.BroadcastsInDim S32x64 (![0, 1] : Fin 2 → Fin S32x64.rank)
  shapeCasts_S32x32768_S32x512x64 : S32x32768.ShapeCasts S32x512x64
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  reducesTo_S32x2048x512_S32x2048_d2 : S32x2048x512.ReducesTo [2] S32x2048
  h_S_ : 0 < S_.numel
  bcast_S32x2048_S32x2048x1_0_1 : S32x2048.BroadcastsInDim S32x2048x1 (![0, 1] : Fin 2 → Fin S32x2048x1.rank)
  bcast_S_S32x2048x1 : S_.BroadcastsInDim S32x2048x1 (![] : Fin 0 → Fin S32x2048x1.rank)
  bcast_S32x2048x1_S32x2048x512_0_1_2 : S32x2048x1.BroadcastsInDim S32x2048x512 (![0, 1, 2] : Fin 3 → Fin S32x2048x512.rank)
  bcast_S32x512_S32x1x512_0_2 : S32x512.BroadcastsInDim S32x1x512 (![0, 2] : Fin 2 → Fin S32x1x512.rank)
  bcast_S32x1x512_S32x2048x512_0_1_2 : S32x1x512.BroadcastsInDim S32x2048x512 (![0, 1, 2] : Fin 3 → Fin S32x2048x512.rank)
  bcast_S32x64_S32x1x64_0_2 : S32x64.BroadcastsInDim S32x1x64 (![0, 2] : Fin 2 → Fin S32x1x64.rank)
  bcast_S32x1x64_S32x2048x64_0_1_2 : S32x1x64.BroadcastsInDim S32x2048x64 (![0, 1, 2] : Fin 3 → Fin S32x2048x64.rank)
  bcast_S_S32x2048x64 : S_.BroadcastsInDim S32x2048x64 (![] : Fin 0 → Fin S32x2048x64.rank)
  dot_S32x64_S64x32768_S32x32768_1_0_0_1_n_n_wf : DotDims.WF S32x64 S64x32768 S32x32768 [1] [0] [0] [1] [] []
  dot_S32x64_S64x64_S32x64_1_0_0_1_n_n_wf : DotDims.WF S32x64 S64x64 S32x64 [1] [0] [0] [1] [] []
  dot_S32x64_S64x512_S32x512_1_0_0_1_n_n_wf : DotDims.WF S32x64 S64x512 S32x512 [1] [0] [0] [1] [] []
  dot_S32x2048x512_S32x64x512_S32x2048x64_2_2_1_1_0_0_wf : DotDims.WF S32x2048x512 S32x64x512 S32x2048x64 [2] [2] [1] [1] [0] [0]
  dot_S32x2048x64_S32x512x64_S32x2048x512_2_2_1_1_0_0_wf : DotDims.WF S32x2048x64 S32x512x64 S32x2048x512 [2] [2] [1] [1] [0] [0]

variable [Facts₀]

def dot_S32x64_S64x32768_S32x32768_1_0_0_1_n_n : DotDims S32x64 S64x32768 S32x32768 where
  lhsContracting := [1]
  rhsContracting := [0]
  lhsNonContracting := [0]
  rhsNonContracting := [1]
  lhsBatch := []
  rhsBatch := []
  wf := dot_S32x64_S64x32768_S32x32768_1_0_0_1_n_n_wf
def dot_S32x64_S64x64_S32x64_1_0_0_1_n_n : DotDims S32x64 S64x64 S32x64 where
  lhsContracting := [1]
  rhsContracting := [0]
  lhsNonContracting := [0]
  rhsNonContracting := [1]
  lhsBatch := []
  rhsBatch := []
  wf := dot_S32x64_S64x64_S32x64_1_0_0_1_n_n_wf
def dot_S32x64_S64x512_S32x512_1_0_0_1_n_n : DotDims S32x64 S64x512 S32x512 where
  lhsContracting := [1]
  rhsContracting := [0]
  lhsNonContracting := [0]
  rhsNonContracting := [1]
  lhsBatch := []
  rhsBatch := []
  wf := dot_S32x64_S64x512_S32x512_1_0_0_1_n_n_wf
def dot_S32x2048x512_S32x64x512_S32x2048x64_2_2_1_1_0_0 : DotDims S32x2048x512 S32x64x512 S32x2048x64 where
  lhsContracting := [2]
  rhsContracting := [2]
  lhsNonContracting := [1]
  rhsNonContracting := [1]
  lhsBatch := [0]
  rhsBatch := [0]
  wf := dot_S32x2048x512_S32x64x512_S32x2048x64_2_2_1_1_0_0_wf
def dot_S32x2048x64_S32x512x64_S32x2048x512_2_2_1_1_0_0 : DotDims S32x2048x64 S32x512x64 S32x2048x512 where
  lhsContracting := [2]
  rhsContracting := [2]
  lhsNonContracting := [1]
  rhsNonContracting := [1]
  lhsBatch := [0]
  rhsBatch := [0]
  wf := dot_S32x2048x64_S32x512x64_S32x2048x512_2_2_1_1_0_0_wf

class Facts : Prop extends Facts₀ where

variable [Facts]
-- ==== Proof.KernelFrame.lean ====
/-
  The frame of `Kernel`: the program's host lines build the per-sample adapter weights and the packed row of
  vectors, then one grid of 32 x 2 points runs the adapter body on a 1024-row tile of one sample.  The body reads its
  four input blocks whole, computes, and overwrites its output block whole, so after point `t` the output block is a
  function of the four input blocks at `t` alone (`out4`), and no argument array is ever written.
-/
import proofs.«128579_j51539607552027_2_alg».proof.Proof.Gen.Kernel.Launch
import proofs.«128579_j51539607552027_2_alg».proof.Proof.Gen.Kernel.Skeleton
import proofs.«128579_j51539607552027_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the grid -/

/-- The TensorCore's buffers when the grid is entered: the launch memory after the three stretches of host lines. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program is its host lines followed by the grid. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- Every buffer a host line writes: the intermediate results, never an argument. -/
def written : List (Ref sig .tc) :=
  [main_v0, main_v1, main_v2, main_v3, main_v4, main_v5, main_v6, main_v7, main_v8, main_v9, main_v10, main_v11, main_v12,
   main_v13, main_v14, main_v15, main_v16, main_v17, main_v18, main_v19, main_v20, main_v21, main_v22, main_v23, main_v24,
   main_v25, main_v26, main_v27, main_v28, main_v29, main_v30, main_v31, main_v32, main_v33, main_v34, main_v35, main_c,
   main_call0_v0, main_v36, main_cst, main_v37, main_v38, main_v39, main_v40, main_v41, main_v42, main_v43, main_v44,
   main_v45, main_v46]

theorem writes_sub : (List.flatten [hostOps0, hostOps0_1, hostOps0_2] : List (HloOp τ sig (Elt F))).Forall
    fun op => op.writes ⊆ (written.map (Proc.devRef (τ := τ) .tc)).toFinset := by
  simp only [hostOps0, hostOps0_1, hostOps0_2, List.flatten_cons, List.flatten_nil, List.append_nil, List.cons_append,
    List.nil_append, List.Forall, StableHlo.nullary_writes, StableHlo.unary_writes, StableHlo.binary_writes,
    StableHlo.reshape_writes, StableHlo.nary_writes, Finset.singleton_subset_iff, List.mem_toFinset]
  repeat' apply And.intro
  all_goals exact List.mem_map_of_mem (by decide)

/-- A buffer no host line writes is found by the grid as launched. -/
theorem V_kept (c : Dev nD) (r : Ref sig .tc) (hr : r ∉ written) : V m c r = m ((c : Thread nD τ).loc r) :=
  StableHlo.after_of_writes_sub _ _ writes_sub hr

/-! ## The windows' blocks -/

/-- Window `w`'s block at point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether or not the point fetched it:
    a point that does not fetch has the block index of the point before. One statement per input window. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each whole buffer -/

abbrev rX : Rect S1x1024x512 := Rect.unit (s := S1x1024x512) ![0, 0, 0] S1x1024x512.size inb_S1x1024x512_S1x1024x512_0_0_0
abbrev rWd : Rect S1x64x512 := Rect.unit (s := S1x64x512) ![0, 0, 0] S1x64x512.size inb_S1x64x512_S1x64x512_0_0_0
abbrev rWu : Rect S1x512x64 := Rect.unit (s := S1x512x64) ![0, 0, 0] S1x512x64.size inb_S1x512x64_S1x512x64_0_0_0
abbrev rVec : Rect S1x8x512 := Rect.unit (s := S1x8x512) ![0, 0, 0] S1x8x512.size inb_S1x8x512_S1x8x512_0_0_0

/-- The output block after the body, from the four input blocks: the one store's value, written over the whole block. -/
def out4 (x0 : Vec F S1x1024x512 .f32) (x1 : Vec F S1x64x512 .bf16) (x2 : Vec F S1x512x64 .bf16) (x3 : Vec F S1x8x512 .f32) :
    Vec F S1x1024x512 .f32 :=
  View.canon [⟨rX, k0_pay1 (k0_pay3 (View.ld x3 rVec)) (k0_pay4 (View.ld x3 rVec)) (k0_pay5 (View.ld x3 rVec))
    (k0_pay6 (View.ld x0 rX) (View.ld x3 rVec) (View.ld x1 rWd)) (View.ld x2 rWu) (View.ld x0 rX)⟩]

/-- The one store covers the block. -/
theorem cover4 (p0 : Vec F S1x1024x512 .f32) (y : S1x1024x512.Idx) :
    ∃ pc ∈ ([⟨rX, p0⟩] : List (View.Piece (Elt F) S1x1024x512 .f32)), y ∈ pc.1.set :=
  View.cover_of_tiled [⟨rX, p0⟩] S1x1024x512.size (by rfl) y

/-! ## The body's triple -/

set_option maxHeartbeats 1000000 in
/-- The body on whole staging buffers, the inputs' at known contents and the output's at anything, leaves the inputs'
    as they were and the output's at `out4` of the inputs'. -/
theorem sound_kernel (c : Dev nD) (E : Set ℕ) (i : grid0.Coords)
    (arg2 : Memref sig .tc .vmem S1x1024x512 .f32) (harg2 : arg2.IsWhole) (arg3 : Memref sig .tc .vmem S1x64x512 .bf16) (harg3 : arg3.IsWhole)
    (arg4 : Memref sig .tc .vmem S1x512x64 .bf16) (harg4 : arg4.IsWhole) (arg5 : Memref sig .tc .vmem S1x8x512 .f32) (harg5 : arg5.IsWhole)
    (arg6 : Memref sig .tc .vmem S1x1024x512 .f32) (harg6 : arg6.IsWhole)
    (x0 : Vec F S1x1024x512 .f32) (x1 : Vec F S1x64x512 .bf16) (x2 : Vec F S1x512x64 .bf16) (x3 : Vec F S1x8x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out4 x0 x1 x2 x3)) -∗ K ⟨⟩))
      ⊢ wp frame (wpE (defs₀ (F := F)) Variants.none c none) E (cc0__adapter_kernel i arg2 harg2 arg3 harg3 arg4 harg4 arg5 harg5 arg6 harg6) K := by
  simp only [cc0__adapter_kernel_eq_skeleton]; unfold cc0__adapter_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

/-! ## The proof data of the grid -/

/-- After the body at point `t` each input's buffer holds its block and the output's holds `out4` of the four blocks;
    the arrays are those the grid finds; nothing else is used. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates; at the end every array of the grid holds what the proof data
    says (an input its contents, the output the blocks written back) and every other unscoped buffer what the grid found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-! ## What the run leaves -/

/-- The result array ends at what the grid's write-backs leave of it, and every argument array as launched: the one
    argument the grid stages is an input window's array, the others are buffers nothing writes. -/
theorem run_value : θ_run defs (onTc (τ := τ) (main (F := F))) ⟨m, fun _ => 0, ρ⟩ (fun r => ∀ c : Dev nD,
      r.2.mem ((c.tc : Thread nD τ).loc main_v47) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨(h c).1 4,
      ((h c).2 main_arg0 (Pipeline.mem_restRefs_of main_arg0 (by decide) (by decide))).trans (V_kept m c main_arg0 (by decide)),
      ((h c).1 0).trans (((dats m 0 c).arrAt_in 0 rfl _).trans ((A_eq m c 0).trans (V_kept m c main_arg1 (by decide)))),
      ((h c).2 main_arg2 (Pipeline.mem_restRefs_of main_arg2 (by decide) (by decide))).trans (V_kept m c main_arg2 (by decide)),
      ((h c).2 main_arg3 (Pipeline.mem_restRefs_of main_arg3 (by decide) (by decide))).trans (V_kept m c main_arg3 (by decide)),
      ((h c).2 main_arg4 (Pipeline.mem_restRefs_of main_arg4 (by decide) (by decide))).trans (V_kept m c main_arg4 (by decide)),
      ((h c).2 main_arg5 (Pipeline.mem_restRefs_of main_arg5 (by decide) (by decide))).trans (V_kept m c main_arg5 (by decide)),
      ((h c).2 main_arg6 (Pipeline.mem_restRefs_of main_arg6 (by decide) (by decide))).trans (V_kept m c main_arg6 (by decide)),
      ((h c).2 main_arg7 (Pipeline.mem_restRefs_of main_arg7 (by decide) (by decide))).trans (V_kept m c main_arg7 (by decide)),
      ((h c).2 main_arg8 (Pipeline.mem_restRefs_of main_arg8 (by decide) (by decide))).trans (V_kept m c main_arg8 (by decide)),
      ((h c).2 main_arg9 (Pipeline.mem_restRefs_of main_arg9 (by decide) (by decide))).trans (V_kept m c main_arg9 (by decide)),
      ((h c).2 main_arg10 (Pipeline.mem_restRefs_of main_arg10 (by decide) (by decide))).trans (V_kept m c main_arg10 (by decide)),
      ((h c).2 main_arg11 (Pipeline.mem_restRefs_of main_arg11 (by decide) (by decide))).trans (V_kept m c main_arg11 (by decide)),
      ((h c).2 main_arg12 (Pipeline.mem_restRefs_of main_arg12 (by decide) (by decide))).trans (V_kept m c main_arg12 (by decide)),
      ((h c).2 main_arg13 (Pipeline.mem_restRefs_of main_arg13 (by decide) (by decide))).trans (V_kept m c main_arg13 (by decide)),
      ((h c).2 main_arg14 (Pipeline.mem_restRefs_of main_arg14 (by decide) (by decide))).trans (V_kept m c main_arg14 (by decide)),
      ((h c).2 main_arg15 (Pipeline.mem_restRefs_of main_arg15 (by decide) (by decide))).trans (V_kept m c main_arg15 (by decide)),
      ((h c).2 main_arg16 (Pipeline.mem_restRefs_of main_arg16 (by decide) (by decide))).trans (V_kept m c main_arg16 (by decide)),
      ((h c).2 main_arg17 (Pipeline.mem_restRefs_of main_arg17 (by decide) (by decide))).trans (V_kept m c main_arg17 (by decide))⟩) (run_main m ρ)

/-- The frame: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => (h c).2) (run_value m ρ)

end Cert.Kernel.Frame

end
-- ==== Proof.KernelIdealFrame.lean ====
/-
  The frame of `KernelIdeal`: the program's host lines build the per-sample adapter weights and the packed row of
  vectors, then one grid of 32 x 2 points runs the adapter body on a 1024-row tile of one sample.  The body reads its
  four input blocks whole, computes, and overwrites its output block whole, so after point `t` the output block is a
  function of the four input blocks at `t` alone (`out4`), and no argument array is ever written.
-/
import proofs.«128579_j51539607552027_2_alg».proof.Proof.Gen.KernelIdeal.Launch
import proofs.«128579_j51539607552027_2_alg».proof.Proof.Gen.KernelIdeal.Skeleton
import proofs.«128579_j51539607552027_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the grid -/

/-- The TensorCore's buffers when the grid is entered: the launch memory after the three stretches of host lines. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program is its host lines followed by the grid. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- Every buffer a host line writes: the intermediate results, never an argument. -/
def written : List (Ref sig .tc) :=
  [main_v0, main_v1, main_v2, main_v3, main_v4, main_v5, main_v6, main_v7, main_v8, main_v9, main_v10, main_v11, main_v12,
   main_v13, main_v14, main_v15, main_v16, main_v17, main_v18, main_v19, main_v20, main_v21, main_v22, main_v23, main_v24,
   main_v25, main_v26, main_v27, main_v28, main_v29, main_v30, main_v31, main_v32, main_v33, main_v34, main_v35, main_c,
   main_call0_v0, main_v36, main_cst, main_v37, main_v38, main_v39, main_v40, main_v41, main_v42, main_v43, main_v44,
   main_v45, main_v46]

theorem writes_sub : (List.flatten [hostOps0, hostOps0_1, hostOps0_2] : List (HloOp τ sig (Elt F))).Forall
    fun op => op.writes ⊆ (written.map (Proc.devRef (τ := τ) .tc)).toFinset := by
  simp only [hostOps0, hostOps0_1, hostOps0_2, List.flatten_cons, List.flatten_nil, List.append_nil, List.cons_append,
    List.nil_append, List.Forall, StableHlo.nullary_writes, StableHlo.unary_writes, StableHlo.binary_writes,
    StableHlo.reshape_writes, StableHlo.nary_writes, Finset.singleton_subset_iff, List.mem_toFinset]
  repeat' apply And.intro
  all_goals exact List.mem_map_of_mem (by decide)

/-- A buffer no host line writes is found by the grid as launched. -/
theorem V_kept (c : Dev nD) (r : Ref sig .tc) (hr : r ∉ written) : V m c r = m ((c : Thread nD τ).loc r) :=
  StableHlo.after_of_writes_sub _ _ writes_sub hr

/-! ## The windows' blocks -/

/-- Window `w`'s block at point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether or not the point fetched it:
    a point that does not fetch has the block index of the point before. One statement per input window. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each whole buffer -/

abbrev rX : Rect S1x1024x512 := Rect.unit (s := S1x1024x512) ![0, 0, 0] S1x1024x512.size inb_S1x1024x512_S1x1024x512_0_0_0
abbrev rWd : Rect S1x64x512 := Rect.unit (s := S1x64x512) ![0, 0, 0] S1x64x512.size inb_S1x64x512_S1x64x512_0_0_0
abbrev rWu : Rect S1x512x64 := Rect.unit (s := S1x512x64) ![0, 0, 0] S1x512x64.size inb_S1x512x64_S1x512x64_0_0_0
abbrev rVec : Rect S1x8x512 := Rect.unit (s := S1x8x512) ![0, 0, 0] S1x8x512.size inb_S1x8x512_S1x8x512_0_0_0

/-- The output block after the body, from the four input blocks: the one store's value, written over the whole block. -/
def out4 (x0 : Vec F S1x1024x512 .f32) (x1 : Vec F S1x64x512 .bf16) (x2 : Vec F S1x512x64 .bf16) (x3 : Vec F S1x8x512 .f32) :
    Vec F S1x1024x512 .f32 :=
  View.canon [⟨rX, k0_pay1 (k0_pay3 (View.ld x3 rVec)) (k0_pay4 (View.ld x3 rVec)) (k0_pay5 (View.ld x3 rVec))
    (k0_pay6 (View.ld x0 rX) (View.ld x3 rVec) (View.ld x1 rWd)) (View.ld x2 rWu) (View.ld x0 rX)⟩]

/-- The one store covers the block. -/
theorem cover4 (p0 : Vec F S1x1024x512 .f32) (y : S1x1024x512.Idx) :
    ∃ pc ∈ ([⟨rX, p0⟩] : List (View.Piece (Elt F) S1x1024x512 .f32)), y ∈ pc.1.set :=
  View.cover_of_tiled [⟨rX, p0⟩] S1x1024x512.size (by rfl) y

/-! ## The body's triple -/

set_option maxHeartbeats 1000000 in
/-- The body on whole staging buffers, the inputs' at known contents and the output's at anything, leaves the inputs'
    as they were and the output's at `out4` of the inputs'. -/
theorem sound_kernel (c : Dev nD) (E : Set ℕ) (i : grid0.Coords)
    (arg2 : Memref sig .tc .vmem S1x1024x512 .f32) (harg2 : arg2.IsWhole) (arg3 : Memref sig .tc .vmem S1x64x512 .bf16) (harg3 : arg3.IsWhole)
    (arg4 : Memref sig .tc .vmem S1x512x64 .bf16) (harg4 : arg4.IsWhole) (arg5 : Memref sig .tc .vmem S1x8x512 .f32) (harg5 : arg5.IsWhole)
    (arg6 : Memref sig .tc .vmem S1x1024x512 .f32) (harg6 : arg6.IsWhole)
    (x0 : Vec F S1x1024x512 .f32) (x1 : Vec F S1x64x512 .bf16) (x2 : Vec F S1x512x64 .bf16) (x3 : Vec F S1x8x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out4 x0 x1 x2 x3)) -∗ K ⟨⟩))
      ⊢ wp frame (wpE (defs₀ (F := F)) Variants.none c none) E (cc0__adapter_kernel i arg2 harg2 arg3 harg3 arg4 harg4 arg5 harg5 arg6 harg6) K := by
  simp only [cc0__adapter_kernel_eq_skeleton]; unfold cc0__adapter_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

/-! ## The proof data of the grid -/

/-- After the body at point `t` each input's buffer holds its block and the output's holds `out4` of the four blocks;
    the arrays are those the grid finds; nothing else is used. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates; at the end every array of the grid holds what the proof data
    says (an input its contents, the output the blocks written back) and every other unscoped buffer what the grid found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-! ## What the run leaves -/

/-- The result array ends at what the grid's write-backs leave of it, and every argument array as launched: the one
    argument the grid stages is an input window's array, the others are buffers nothing writes. -/
theorem run_value : θ_run defs (onTc (τ := τ) (main (F := F))) ⟨m, fun _ => 0, ρ⟩ (fun r => ∀ c : Dev nD,
      r.2.mem ((c.tc : Thread nD τ).loc main_v47) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨(h c).1 4,
      ((h c).2 main_arg0 (Pipeline.mem_restRefs_of main_arg0 (by decide) (by decide))).trans (V_kept m c main_arg0 (by decide)),
      ((h c).1 0).trans (((dats m 0 c).arrAt_in 0 rfl _).trans ((A_eq m c 0).trans (V_kept m c main_arg1 (by decide)))),
      ((h c).2 main_arg2 (Pipeline.mem_restRefs_of main_arg2 (by decide) (by decide))).trans (V_kept m c main_arg2 (by decide)),
      ((h c).2 main_arg3 (Pipeline.mem_restRefs_of main_arg3 (by decide) (by decide))).trans (V_kept m c main_arg3 (by decide)),
      ((h c).2 main_arg4 (Pipeline.mem_restRefs_of main_arg4 (by decide) (by decide))).trans (V_kept m c main_arg4 (by decide)),
      ((h c).2 main_arg5 (Pipeline.mem_restRefs_of main_arg5 (by decide) (by decide))).trans (V_kept m c main_arg5 (by decide)),
      ((h c).2 main_arg6 (Pipeline.mem_restRefs_of main_arg6 (by decide) (by decide))).trans (V_kept m c main_arg6 (by decide)),
      ((h c).2 main_arg7 (Pipeline.mem_restRefs_of main_arg7 (by decide) (by decide))).trans (V_kept m c main_arg7 (by decide)),
      ((h c).2 main_arg8 (Pipeline.mem_restRefs_of main_arg8 (by decide) (by decide))).trans (V_kept m c main_arg8 (by decide)),
      ((h c).2 main_arg9 (Pipeline.mem_restRefs_of main_arg9 (by decide) (by decide))).trans (V_kept m c main_arg9 (by decide)),
      ((h c).2 main_arg10 (Pipeline.mem_restRefs_of main_arg10 (by decide) (by decide))).trans (V_kept m c main_arg10 (by decide)),
      ((h c).2 main_arg11 (Pipeline.mem_restRefs_of main_arg11 (by decide) (by decide))).trans (V_kept m c main_arg11 (by decide)),
      ((h c).2 main_arg12 (Pipeline.mem_restRefs_of main_arg12 (by decide) (by decide))).trans (V_kept m c main_arg12 (by decide)),
      ((h c).2 main_arg13 (Pipeline.mem_restRefs_of main_arg13 (by decide) (by decide))).trans (V_kept m c main_arg13 (by decide)),
      ((h c).2 main_arg14 (Pipeline.mem_restRefs_of main_arg14 (by decide) (by decide))).trans (V_kept m c main_arg14 (by decide)),
      ((h c).2 main_arg15 (Pipeline.mem_restRefs_of main_arg15 (by decide) (by decide))).trans (V_kept m c main_arg15 (by decide)),
      ((h c).2 main_arg16 (Pipeline.mem_restRefs_of main_arg16 (by decide) (by decide))).trans (V_kept m c main_arg16 (by decide)),
      ((h c).2 main_arg17 (Pipeline.mem_restRefs_of main_arg17 (by decide) (by decide))).trans (V_kept m c main_arg17 (by decide))⟩) (run_main m ρ)

/-- The frame: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => (h c).2) (run_value m ρ)

end Cert.KernelIdeal.Frame

end
-- ==== Proof.RowSpec.lean ====
/-
  One row of the adapter, on the extended reals.  A row `x` of 512 entries is normalized (its mean removed, divided
  by the root of its mean square plus a small positive constant), scaled and shifted entrywise, sent through a
  64-wide rectified projection and back up to 512 entries, normalized again, and added to `x`.

  The kernel multiplies by the reciprocal root, the reference divides by the root.  The quantity under the root is a
  sum of squares divided by 512 plus a positive constant, hence positive on the extended reals whatever the row
  holds, and for a positive `v` (finite or `+∞`) the two spellings agree: `a · v^(-1/2) = a / v^(1/2)`.
-/
import Idealize.ShloMosaic.PureOps.Ideal
import Idealize.ShloMosaic.PureOps.Ideal.Laws

noncomputable section

namespace Cert.Adapter

open Idealize.ShloMosaic

/-- The row length, `512.0`. -/
abbrev c512 : EReal := Ideal.ofBits .f32 0x44000000#32
/-- The small constant under the root (the float nearest `1e-5`). -/
abbrev ceps : EReal := Ideal.ofBits .f32 0x3727C5AC#32
/-- The float zero. -/
abbrev z0 : EReal := Ideal.ofBits .f32 0x00000000#32

theorem c512_eq : c512 = ((512 : ℝ) : EReal) := by
  simp [c512, Ideal.ofBits, Ideal.ieee, -EReal.coe_mul]; norm_num

theorem ceps_pos : 0 < ceps := by
  simp [ceps, Ideal.ofBits, Ideal.ieee, -EReal.coe_mul]

/-- A square is nonnegative on the extended reals, the infinities included. -/
theorem mul_self_nonneg (a : EReal) : 0 ≤ a * a := by
  rcases le_total 0 a with h | h
  · exact EReal.mul_nonneg h h
  · exact EReal.mul_nonneg_iff.mpr (Or.inr ⟨h, h⟩)

/-- Multiplying by the reciprocal root of a positive extended real is dividing by its root. -/
theorem mul_rsqrt_eq_div_sqrt (a v : EReal) (hv : 0 < v) : a * Ideal.rsqrt v = Ideal.div a (Ideal.sqrt v) := by
  induction v using EReal.rec with
  | bot => exact absurd hv (by simp)
  | top =>
    show a * (0 : EReal) = Ideal.div a ⊤
    rw [Ideal.div, if_neg (by simp), EReal.inv_top]
  | coe r =>
    have hr : 0 < r := by exact_mod_cast hv
    have hs : Real.sqrt r ≠ 0 := (Real.sqrt_pos.mpr hr).ne'
    show a * (if r < 0 then (⊥ : EReal) else if r = 0 then (⊤ : EReal) else (((Real.sqrt r)⁻¹ : ℝ) : EReal))
      = Ideal.div a (if r < 0 then (⊥ : EReal) else ((Real.sqrt r : ℝ) : EReal))
    rw [if_neg (not_lt.mpr hr.le), if_neg hr.ne', if_neg (not_lt.mpr hr.le), Ideal.div_coe hs, one_div]

/-- The row's mean. -/
def mean (x : Fin 512 → EReal) : EReal := Ideal.div (∑ k, x k) c512
/-- The row's mean square about its mean, plus the small constant. -/
def var (x : Fin 512 → EReal) : EReal := Ideal.div (∑ k, (x k - mean x) * (x k - mean x)) c512 + ceps

theorem var_pos (x : Fin 512 → EReal) : 0 < var x := by
  unfold var
  rw [add_comm]
  refine EReal.add_pos_of_pos_of_nonneg ceps_pos ?_
  rw [c512_eq, Ideal.div_coe (by norm_num)]
  refine EReal.mul_nonneg (Finset.sum_nonneg fun k _ => mul_self_nonneg _) ?_
  exact_mod_cast (by norm_num : (0 : ℝ) ≤ 1 / 512)

/-- The normalization as the kernel spells it: times the reciprocal root. -/
def lnK (x w b : Fin 512 → EReal) (d : Fin 512) : EReal := (x d - mean x) * Ideal.rsqrt (var x) * w d + b d
/-- The normalization as the reference spells it: divided by the root. -/
def lnR (x w b : Fin 512 → EReal) (d : Fin 512) : EReal := Ideal.div (x d - mean x) (Ideal.sqrt (var x)) * w d + b d

theorem lnK_eq_lnR (x w b : Fin 512 → EReal) : lnK x w b = lnR x w b := by
  funext d
  unfold lnK lnR
  rw [mul_rsqrt_eq_div_sqrt _ _ (var_pos x)]

/-- The rectified projection down to 64 entries. -/
def mid (z : Fin 512 → EReal) (wd : Fin 64 → Fin 512 → EReal) (bd : Fin 64 → EReal) (a : Fin 64) : EReal :=
  max ((∑ k, z k * wd a k) + bd a) z0
/-- The projection back up to 512 entries. -/
def up (h : Fin 64 → EReal) (wu : Fin 512 → Fin 64 → EReal) (bu : Fin 512 → EReal) (d : Fin 512) : EReal :=
  (∑ a, h a * wu d a) + bu d

/-- The whole row, in the kernel's spelling. -/
def rowK (x : Fin 512 → EReal) (wd : Fin 64 → Fin 512 → EReal) (bd : Fin 64 → EReal) (wu : Fin 512 → Fin 64 → EReal)
    (bu prew preb postw postb : Fin 512 → EReal) (d : Fin 512) : EReal :=
  lnK (up (mid (lnK x prew preb) wd bd) wu bu) postw postb d + x d
/-- The whole row, in the reference's spelling. -/
def rowR (x : Fin 512 → EReal) (wd : Fin 64 → Fin 512 → EReal) (bd : Fin 64 → EReal) (wu : Fin 512 → Fin 64 → EReal)
    (bu prew preb postw postb : Fin 512 → EReal) (d : Fin 512) : EReal :=
  lnR (up (mid (lnR x prew preb) wd bd) wu bu) postw postb d + x d

theorem rowK_eq_rowR (x : Fin 512 → EReal) (wd : Fin 64 → Fin 512 → EReal) (bd : Fin 64 → EReal) (wu : Fin 512 → Fin 64 → EReal)
    (bu prew preb postw postb : Fin 512 → EReal) :
    rowK x wd bd wu bu prew preb postw postb = rowR x wd bd wu bu prew preb postw postb := by
  funext d
  unfold rowK rowR
  rw [lnK_eq_lnR, lnK_eq_lnR]

end Cert.Adapter

end
-- ==== Proof.KernelPayload.lean ====
/-
  The body's value at one entry.  The body works on a tile of 1024 rows of one sample: it normalizes each row, projects
  it down to 64 entries through the sample's down matrix, rectifies, projects back up through the up matrix, normalizes
  again and adds the row.  Read at row `r` and column `d` of the tile, each array operation is its entrywise meaning:
  a sum along a row is the finite sum over the row, a column broadcast repeats the row's scalar, a row broadcast
  repeats the parameter row, and a matrix product into a zero accumulator is the sum over the contracted axis.
-/
import proofs.«128579_j51539607552027_2_alg».proof.Proof.KernelIdealFrame
import proofs.«128579_j51539607552027_2_alg».proof.Proof.RowSpec
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Cert.KernelIdeal.Frame
open Idealize.ShloMosaic Idealize.ShloMosaic.ValueIdx Cert.Adapter

/-! ## Layout operations of the tile read at an entry -/

/-- The sum along row `r` of a [1024, 512] tile. -/
theorem rowsum (v : FVec Ideal S1024x512 .f32) (r : Fin 1024) :
    multiReduction .add [1] S1024 v 0x00000000#32 reduces_S1024x512_S1024 (.inl rfl) rfl (ix1 r) = ∑ k : Fin 512, v (ix2 r k) := by
  refine (Ideal.multiReduction_add_single v 0x00000000#32 reduces_S1024x512_S1024 (.inl rfl) rfl (ix1 r)).trans ?_
  show ∑ k : Fin 512, v (reduces_S1024x512_S1024.lift (ix1 r) k) = _
  refine Finset.sum_congr rfl fun k _ => congrArg v ?_
  funext c
  apply Fin.ext
  match c with
  | ⟨0, _⟩ => rfl
  | ⟨1, _⟩ => rfl

/-- A column of per-row scalars, as a [1024, 1] array, at row `r`. -/
theorem col_cast (u : FVec Ideal S1024 .f32) (r : Fin 1024) :
    shapeCast S1024x1 u shapeCasts_S1024_S1024x1 (ix2 r (0 : Fin 1)) = u (ix1 r) := by
  refine shapeCast_apply u shapeCasts_S1024_S1024x1 (ix2 r (0 : Fin 1)) (ix1 r) ?_
  rw [Shape.rowMajor_val_one, Shape.rowMajor_val_two]
  show r.val = r.val * 1 + 0
  omega

/-- A [1024, 1] column repeated along the 512 columns. -/
theorem col_bcast (u : FVec Ideal S1024x1 .f32) (r : Fin 1024) (d : Fin 512) :
    broadcastTo S1024x512 u broadcasts_S1024x1_S1024x512 (ix2 r d) = u (ix2 r (0 : Fin 1)) := by
  refine broadcastTo_apply u broadcasts_S1024x1_S1024x512 (ix2 r d) (ix2 r (0 : Fin 1)) ?_
  intro a
  match a with
  | ⟨0, _⟩ => rfl
  | ⟨1, _⟩ => rfl

/-- A [1, 512] parameter row repeated along the 1024 rows. -/
theorem row_bcast (w : FVec Ideal S1x512 .f32) (r : Fin 1024) (d : Fin 512) :
    broadcastTo S1024x512 w broadcasts_S1x512_S1024x512 (ix2 r d) = w (ix2 (0 : Fin 1) d) := by
  refine broadcastTo_apply w broadcasts_S1x512_S1024x512 (ix2 r d) (ix2 (0 : Fin 1) d) ?_
  intro a
  match a with
  | ⟨0, _⟩ => rfl
  | ⟨1, _⟩ => rfl

/-- A [1, 64] parameter row repeated along the 1024 rows. -/
theorem row_bcast64 (w : FVec Ideal S1x64 .f32) (r : Fin 1024) (a : Fin 64) :
    broadcastTo S1024x64 w broadcasts_S1x64_S1024x64 (ix2 r a) = w (ix2 (0 : Fin 1) a) := by
  refine broadcastTo_apply w broadcasts_S1x64_S1024x64 (ix2 r a) (ix2 (0 : Fin 1) a) ?_
  intro c
  match c with
  | ⟨0, _⟩ => rfl
  | ⟨1, _⟩ => rfl

/-! ## The normalization of a tile, as the body spells it -/

/-- The per-row mean as a [1024, 1] column: the row sums over 512. -/
def rowMean (v : FVec Ideal S1024x512 .f32) : FVec Ideal S1024x1 .f32 :=
  divf (shapeCast S1024x1 (multiReduction .add [1] S1024 v 0x00000000#32 reduces_S1024x512_S1024 (.inl rfl) rfl) shapeCasts_S1024_S1024x1)
    (broadcast S1024x1 (Scalar.ofBits .f32 0x44000000#32))

theorem rowMean_apply (v : FVec Ideal S1024x512 .f32) (r : Fin 1024) :
    rowMean v (ix2 r (0 : Fin 1)) = mean (fun k => v (ix2 r k)) := by
  unfold rowMean mean
  rw [divf_apply, col_cast, rowsum]
  rfl

/-- The tile with each row's mean removed. -/
def centered (v : FVec Ideal S1024x512 .f32) : FVec Ideal S1024x512 .f32 :=
  subf v (broadcastTo S1024x512 (rowMean v) broadcasts_S1024x1_S1024x512)

theorem centered_apply (v : FVec Ideal S1024x512 .f32) (r : Fin 1024) (d : Fin 512) :
    centered v (ix2 r d) = v (ix2 r d) - mean (fun k => v (ix2 r k)) := by
  unfold centered
  rw [subf_apply, col_bcast, rowMean_apply]

/-- The per-row mean square about the mean, plus the small constant, as a [1024, 1] column. -/
def rowVar (v : FVec Ideal S1024x512 .f32) : FVec Ideal S1024x1 .f32 :=
  addf (divf (shapeCast S1024x1 (multiReduction .add [1] S1024 (mulf (centered v) (centered v)) 0x00000000#32 reduces_S1024x512_S1024 (.inl rfl) rfl) shapeCasts_S1024_S1024x1)
      (broadcast S1024x1 (Scalar.ofBits .f32 0x44000000#32)))
    (broadcast S1024x1 (Scalar.ofBits .f32 0x3727C5AC#32))

theorem rowVar_apply (v : FVec Ideal S1024x512 .f32) (r : Fin 1024) :
    rowVar v (ix2 r (0 : Fin 1)) = var (fun k => v (ix2 r k)) := by
  unfold rowVar var
  rw [addf_apply, divf_apply, col_cast, rowsum]
  simp only [mulf_apply, centered_apply]
  rfl

/-- The normalized tile, scaled by the row `w` and shifted by the row `b`. -/
def lnBlock (v : FVec Ideal S1024x512 .f32) (w b : FVec Ideal S1x512 .f32) : FVec Ideal S1024x512 .f32 :=
  addf (mulf (mulf (centered v) (broadcastTo S1024x512 (rsqrt (rowVar v)) broadcasts_S1024x1_S1024x512))
      (broadcastTo S1024x512 w broadcasts_S1x512_S1024x512))
    (broadcastTo S1024x512 b broadcasts_S1x512_S1024x512)

theorem lnBlock_apply (v : FVec Ideal S1024x512 .f32) (w b : FVec Ideal S1x512 .f32) (r : Fin 1024) (d : Fin 512) :
    lnBlock v w b (ix2 r d)
      = lnK (fun k => v (ix2 r k)) (fun k => w (ix2 (0 : Fin 1) k)) (fun k => b (ix2 (0 : Fin 1) k)) d := by
  unfold lnBlock lnK
  rw [addf_apply, mulf_apply, mulf_apply, centered_apply, col_bcast, row_bcast, row_bcast]
  show _ * Ideal.rsqrt (rowVar v (ix2 r (0 : Fin 1))) * _ + _ = _
  rw [rowVar_apply]

/-! ## The two projections -/

/-- The contraction of the down projection: a [1024, 512] tile against a [64, 512] matrix over the 512 axis. -/
abbrev Dd : DotDims S1024x512 S64x512 S1024x64 := dot_S1024x512_S64x512_S1024x64_1_1_0_0_n_n
/-- The contraction of the up projection: a [1024, 64] tile against a [512, 64] matrix over the 64 axis. -/
abbrev Du : DotDims S1024x64 S512x64 S1024x512 := dot_S1024x64_S512x64_S1024x512_1_1_0_0_n_n

theorem Dd_lhs0 (i : S1024x64.Idx) (q : Dd.contr.Idx) : (Dd.lhsIdx i q 0).val = (i 0).val := by
  unfold DotDims.lhsIdx
  rw [dif_neg (show ¬(0 : Fin S1024x512.rank) ∈ Dd.lhsBatch by decide), dif_pos (show (0 : Fin S1024x512.rank) ∈ Dd.lhsNonContracting by decide)]
  rfl
theorem Dd_rhs0 (i : S1024x64.Idx) (q : Dd.contr.Idx) : (Dd.rhsIdx i q 0).val = (i 1).val := by
  unfold DotDims.rhsIdx
  rw [dif_neg (show ¬(0 : Fin S64x512.rank) ∈ Dd.rhsBatch by decide), dif_pos (show (0 : Fin S64x512.rank) ∈ Dd.rhsNonContracting by decide)]
  rfl

theorem Du_lhs0 (i : S1024x512.Idx) (q : Du.contr.Idx) : (Du.lhsIdx i q 0).val = (i 0).val := by
  unfold DotDims.lhsIdx
  rw [dif_neg (show ¬(0 : Fin S1024x64.rank) ∈ Du.lhsBatch by decide), dif_pos (show (0 : Fin S1024x64.rank) ∈ Du.lhsNonContracting by decide)]
  rfl
theorem Du_rhs0 (i : S1024x512.Idx) (q : Du.contr.Idx) : (Du.rhsIdx i q 0).val = (i 1).val := by
  unfold DotDims.rhsIdx
  rw [dif_neg (show ¬(0 : Fin S512x64.rank) ∈ Du.rhsBatch by decide), dif_pos (show (0 : Fin S512x64.rank) ∈ Du.rhsNonContracting by decide)]
  rfl

theorem down_apply (z : FVec Ideal S1024x512 .bf16) (wd : FVec Ideal S64x512 .bf16) (r : Fin 1024) (a : Fin 64) :
    matmul Dd none z wd (constant (F := Ideal) S1024x64 .f32 0x00000000#32) (ix2 r a) = ∑ k : Fin 512, z (ix2 r k) * wd (ix2 a k) := by
  show FloatOps.matmul Dd none z wd (constant (F := Ideal) S1024x64 .f32 0x00000000#32) (ix2 r a) = _
  rw [Ideal.matmul_constant_zero_apply, ← Equiv.sum_comp (contrEquiv1 Dd 512 rfl rfl).symm]
  refine Finset.sum_congr rfl fun k _ => ?_
  have hk := contrEquiv1_symm_val Dd 512 rfl rfl k
  have el : Dd.lhsIdx (ix2 r a) ((contrEquiv1 Dd 512 rfl rfl).symm k) = ix2 r k := funext fun c => Fin.ext (by
    match c with
    | ⟨0, _⟩ => exact Dd_lhs0 _ _
    | ⟨1, _⟩ => exact (Dd.lhsIdx_val_of_single rfl _ _).trans hk)
  have er : Dd.rhsIdx (ix2 r a) ((contrEquiv1 Dd 512 rfl rfl).symm k) = ix2 a k := funext fun c => Fin.ext (by
    match c with
    | ⟨0, _⟩ => exact Dd_rhs0 _ _
    | ⟨1, _⟩ => exact (Dd.rhsIdx_val_of_single rfl _ _).trans hk)
  rw [el, er]

theorem up_apply (h : FVec Ideal S1024x64 .bf16) (wu : FVec Ideal S512x64 .bf16) (r : Fin 1024) (d : Fin 512) :
    matmul Du none h wu (constant (F := Ideal) S1024x512 .f32 0x00000000#32) (ix2 r d) = ∑ k : Fin 64, h (ix2 r k) * wu (ix2 d k) := by
  show FloatOps.matmul Du none h wu (constant (F := Ideal) S1024x512 .f32 0x00000000#32) (ix2 r d) = _
  rw [Ideal.matmul_constant_zero_apply, ← Equiv.sum_comp (contrEquiv1 Du 64 rfl rfl).symm]
  refine Finset.sum_congr rfl fun k _ => ?_
  have hk := contrEquiv1_symm_val Du 64 rfl rfl k
  have el : Du.lhsIdx (ix2 r d) ((contrEquiv1 Du 64 rfl rfl).symm k) = ix2 r k := funext fun c => Fin.ext (by
    match c with
    | ⟨0, _⟩ => exact Du_lhs0 _ _
    | ⟨1, _⟩ => exact (Du.lhsIdx_val_of_single rfl _ _).trans hk)
  have er : Du.rhsIdx (ix2 r d) ((contrEquiv1 Du 64 rfl rfl).symm k) = ix2 d k := funext fun c => Fin.ext (by
    match c with
    | ⟨0, _⟩ => exact Du_rhs0 _ _
    | ⟨1, _⟩ => exact (Du.rhsIdx_val_of_single rfl _ _).trans hk)
  rw [el, er]

/-- The sample's [1, 64, 512] down matrix seen as [64, 512]. -/
theorem wd_cast (x1 : FVec Ideal S1x64x512 .bf16) (a : Fin 64) (k : Fin 512) :
    shapeCast S64x512 x1 shapeCasts_S1x64x512_S64x512 (ix2 a k) = x1 (ix3 (0 : Fin 1) a k) := by
  refine shapeCast_apply x1 shapeCasts_S1x64x512_S64x512 (ix2 a k) (ix3 (0 : Fin 1) a k) ?_
  rw [Shape.rowMajor_val_three, Shape.rowMajor_val_two]
  show (0 * 64 + a.val) * 512 + k.val = a.val * 512 + k.val
  omega

/-- The sample's [1, 512, 64] up matrix seen as [512, 64]. -/
theorem wu_cast (x2 : FVec Ideal S1x512x64 .bf16) (d : Fin 512) (a : Fin 64) :
    shapeCast S512x64 x2 shapeCasts_S1x512x64_S512x64 (ix2 d a) = x2 (ix3 (0 : Fin 1) d a) := by
  refine shapeCast_apply x2 shapeCasts_S1x512x64_S512x64 (ix2 d a) (ix3 (0 : Fin 1) d a) ?_
  rw [Shape.rowMajor_val_three, Shape.rowMajor_val_two]
  show (0 * 512 + d.val) * 64 + a.val = d.val * 64 + a.val
  omega

/-- The rectified down projection of a tile. -/
def midBlock (z : FVec Ideal S1024x512 .f32) (x1 : FVec Ideal S1x64x512 .bf16) (bd : FVec Ideal S1x64 .f32) : FVec Ideal S1024x64 .f32 :=
  maximumf (addf (matmul Dd none (truncf .bf16 z bitsLt_bf16_f32) (shapeCast S64x512 x1 shapeCasts_S1x64x512_S64x512 : FVec Ideal S64x512 .bf16)
        (constant (F := Ideal) S1024x64 .f32 0x00000000#32))
      (broadcastTo S1024x64 bd broadcasts_S1x64_S1024x64))
    (broadcast S1024x64 (Scalar.ofBits .f32 0x00000000#32))

theorem midBlock_apply (z : FVec Ideal S1024x512 .f32) (x1 : FVec Ideal S1x64x512 .bf16) (bd : FVec Ideal S1x64 .f32)
    (r : Fin 1024) (a : Fin 64) :
    midBlock z x1 bd (ix2 r a)
      = mid (fun k => z (ix2 r k)) (fun a k => x1 (ix3 (0 : Fin 1) a k)) (fun a => bd (ix2 (0 : Fin 1) a)) a := by
  unfold midBlock mid
  rw [maximumf_apply, addf_apply, down_apply, row_bcast64]
  simp only [wd_cast]
  rfl

/-- The up projection of a [1024, 64] tile. -/
def upBlock (h : FVec Ideal S1024x64 .f32) (x2 : FVec Ideal S1x512x64 .bf16) (bu : FVec Ideal S1x512 .f32) : FVec Ideal S1024x512 .f32 :=
  addf (matmul Du none (truncf .bf16 h bitsLt_bf16_f32) (shapeCast S512x64 x2 shapeCasts_S1x512x64_S512x64 : FVec Ideal S512x64 .bf16)
      (constant (F := Ideal) S1024x512 .f32 0x00000000#32))
    (broadcastTo S1024x512 bu broadcasts_S1x512_S1024x512)

theorem upBlock_apply (h : FVec Ideal S1024x64 .f32) (x2 : FVec Ideal S1x512x64 .bf16) (bu : FVec Ideal S1x512 .f32)
    (r : Fin 1024) (d : Fin 512) :
    upBlock h x2 bu (ix2 r d)
      = up (fun a => h (ix2 r a)) (fun d a => x2 (ix3 (0 : Fin 1) d a)) (fun d => bu (ix2 (0 : Fin 1) d)) d := by
  unfold upBlock up
  rw [addf_apply, up_apply, row_bcast]
  simp only [wu_cast]
  rfl

/-! ## The packed parameter rows and the tile's own casts -/

/-- Row `o` of the sample's packed [1, 8, 512] parameter block, as the body slices it out of the [8, 512] view. -/
theorem vec_row (x3 : FVec Ideal S1x8x512 .f32) (o : Nat) (ho : o < 8) (h : S8x512.Slices ![o, 0] S1x512) (d : Fin 512) :
    extractStridedSlice S1x512 ![o, 0] (shapeCast S8x512 x3 shapeCasts_S1x8x512_S8x512) h (ix2 (0 : Fin 1) d)
      = x3 (ix3 (0 : Fin 1) (⟨o, ho⟩ : Fin 8) d) := by
  rw [extractStridedSlice_apply ![o, 0] _ h (ix2 (0 : Fin 1) d) (ix2 (⟨o, ho⟩ : Fin 8) d) (by
    intro a
    match a with
    | ⟨0, _⟩ => rfl
    | ⟨1, _⟩ => exact (Nat.zero_add _).symm)]
  refine shapeCast_apply x3 shapeCasts_S1x8x512_S8x512 (ix2 (⟨o, ho⟩ : Fin 8) d) (ix3 (0 : Fin 1) (⟨o, ho⟩ : Fin 8) d) ?_
  rw [Shape.rowMajor_val_three, Shape.rowMajor_val_two]
  show (0 * 8 + o) * 512 + d.val = o * 512 + d.val
  omega

/-- The first 64 entries of row 0 of the packed block: the down projection's bias. -/
theorem vec_row64 (x3 : FVec Ideal S1x8x512 .f32) (a : Fin 64) :
    extractStridedSlice S1x64 ![0, 0] (shapeCast S8x512 x3 shapeCasts_S1x8x512_S8x512) slices_S8x512_o0_0_S1x64 (ix2 (0 : Fin 1) a)
      = x3 (ix3 (0 : Fin 1) (0 : Fin 8) (Fin.castLE (by decide : 64 ≤ 512) a)) := by
  rw [extractStridedSlice_apply ![0, 0] _ slices_S8x512_o0_0_S1x64 (ix2 (0 : Fin 1) a) (ix2 (0 : Fin 8) (Fin.castLE (by decide : 64 ≤ 512) a)) (by
    intro c
    match c with
    | ⟨0, _⟩ => rfl
    | ⟨1, _⟩ => exact (Nat.zero_add _).symm)]
  refine shapeCast_apply x3 shapeCasts_S1x8x512_S8x512 (ix2 (0 : Fin 8) (Fin.castLE (by decide : 64 ≤ 512) a)) (ix3 (0 : Fin 1) (0 : Fin 8) (Fin.castLE (by decide : 64 ≤ 512) a)) ?_
  rw [Shape.rowMajor_val_three, Shape.rowMajor_val_two]
  show (0 * 8 + 0) * 512 + a.val = 0 * 512 + a.val
  omega

/-- The [1, 1024, 512] tile seen as [1024, 512]. -/
theorem tile_cast (x0 : FVec Ideal S1x1024x512 .f32) (r : Fin 1024) (k : Fin 512) :
    shapeCast S1024x512 x0 shapeCasts_S1x1024x512_S1024x512 (ix2 r k) = x0 (ix3 (0 : Fin 1) r k) := by
  refine shapeCast_apply x0 shapeCasts_S1x1024x512_S1024x512 (ix2 r k) (ix3 (0 : Fin 1) r k) ?_
  rw [Shape.rowMajor_val_three, Shape.rowMajor_val_two]
  show (0 * 1024 + r.val) * 512 + k.val = r.val * 512 + k.val
  omega

/-- A [1024, 512] result stored as the [1, 1024, 512] block. -/
theorem tile_uncast (v : FVec Ideal S1024x512 .f32) (r : Fin 1024) (d : Fin 512) :
    shapeCast S1x1024x512 v shapeCasts_S1024x512_S1x1024x512 (ix3 (0 : Fin 1) r d) = v (ix2 r d) := by
  refine shapeCast_apply v shapeCasts_S1024x512_S1x1024x512 (ix3 (0 : Fin 1) r d) (ix2 r d) ?_
  rw [Shape.rowMajor_val_three, Shape.rowMajor_val_two]
  show r.val * 512 + d.val = (0 * 1024 + r.val) * 512 + d.val
  omega

/-! ## The body's one store, at an entry -/

/-- The stored value is the composition of the pieces above. -/
theorem pay_eq (x0 : FVec Ideal S1x1024x512 .f32) (x1 : FVec Ideal S1x64x512 .bf16) (x2 : FVec Ideal S1x512x64 .bf16) (x3 : FVec Ideal S1x8x512 .f32) :
    k0_pay1 (F := Ideal) (k0_pay3 x3) (k0_pay4 x3) (k0_pay5 x3) (k0_pay6 x0 x3 x1) x2 x0
      = shapeCast S1x1024x512
          (addf (lnBlock (upBlock (midBlock (lnBlock (shapeCast S1024x512 x0 shapeCasts_S1x1024x512_S1024x512)
                  (extractStridedSlice S1x512 ![2, 0] (shapeCast S8x512 x3 shapeCasts_S1x8x512_S8x512) slices_S8x512_o2_0_S1x512)
                  (extractStridedSlice S1x512 ![3, 0] (shapeCast S8x512 x3 shapeCasts_S1x8x512_S8x512) slices_S8x512_o3_0_S1x512))
                x1 (extractStridedSlice S1x64 ![0, 0] (shapeCast S8x512 x3 shapeCasts_S1x8x512_S8x512) slices_S8x512_o0_0_S1x64))
              x2 (extractStridedSlice S1x512 ![1, 0] (shapeCast S8x512 x3 shapeCasts_S1x8x512_S8x512) slices_S8x512_o1_0_S1x512))
            (extractStridedSlice S1x512 ![4, 0] (shapeCast S8x512 x3 shapeCasts_S1x8x512_S8x512) slices_S8x512_o4_0_S1x512)
            (extractStridedSlice S1x512 ![5, 0] (shapeCast S8x512 x3 shapeCasts_S1x8x512_S8x512) slices_S8x512_o5_0_S1x512))
            (shapeCast S1024x512 x0 shapeCasts_S1x1024x512_S1024x512))
          shapeCasts_S1024x512_S1x1024x512 := rfl

/-- The output block after the body, at row `r` and column `d`: the row function of row `r` of the input block
    with the sample's matrices and the six packed parameter rows. -/
theorem out4_apply (x0 : FVec Ideal S1x1024x512 .f32) (x1 : FVec Ideal S1x64x512 .bf16) (x2 : FVec Ideal S1x512x64 .bf16)
    (x3 : FVec Ideal S1x8x512 .f32) (r : Fin 1024) (d : Fin 512) :
    out4 (F := Ideal) x0 x1 x2 x3 (ix3 (0 : Fin 1) r d)
      = rowK (fun k => x0 (ix3 (0 : Fin 1) r k)) (fun a k => x1 (ix3 (0 : Fin 1) a k))
          (fun a => x3 (ix3 (0 : Fin 1) (0 : Fin 8) (Fin.castLE (by decide : 64 ≤ 512) a)))
          (fun d a => x2 (ix3 (0 : Fin 1) d a))
          (fun d => x3 (ix3 (0 : Fin 1) (1 : Fin 8) d)) (fun d => x3 (ix3 (0 : Fin 1) (2 : Fin 8) d))
          (fun d => x3 (ix3 (0 : Fin 1) (3 : Fin 8) d)) (fun d => x3 (ix3 (0 : Fin 1) (4 : Fin 8) d))
          (fun d => x3 (ix3 (0 : Fin 1) (5 : Fin 8) d)) d := by
  have hz : (![0, 0, 0] : Fin 3 → Nat) = fun _ => 0 := by
    funext a; match a with | ⟨0, _⟩ => rfl | ⟨1, _⟩ => rfl | ⟨2, _⟩ => rfl
  unfold out4 rX rVec rWd rWu
  rw [View.canon_unit_zero hz]
  simp only [View.ld_unit_zero (S := S1x1024x512) hz, View.ld_unit_zero (S := S1x64x512) hz,
    View.ld_unit_zero (S := S1x512x64) hz, View.ld_unit_zero (S := S1x8x512) hz]
  rw [pay_eq, tile_uncast, addf_apply, lnBlock_apply, tile_cast]
  unfold rowK
  congr 1
  congr 1
  · funext d'
    rw [upBlock_apply]
    congr 1
    · funext a
      rw [midBlock_apply]
      congr 1
      · funext k
        rw [lnBlock_apply]
        congr 1
        · funext k'; exact tile_cast x0 r k'
        · funext k'; exact vec_row x3 2 (by decide) _ k'
        · funext k'; exact vec_row x3 3 (by decide) _ k'
      · funext a'; exact vec_row64 x3 a'
    · funext d''; exact vec_row x3 1 (by decide) _ d''
  · funext k; exact vec_row x3 4 (by decide) _ k
  · funext k; exact vec_row x3 5 (by decide) _ k

end Cert.KernelIdeal.Payload

end
-- ==== Proof.AdapterSpec.lean ====
/-
  The adapter's result as ONE function of the input `X` [32, 2048, 512] and the eight per-sample parameter arrays
  (the down projection [32, 64, 512] and its bias [32, 64], the up projection [32, 512, 64] and its bias [32, 512],
  and the scales and shifts of the two normalizations, [32, 512] each): entry (b, s, ·) is the row function of
  row (b, s) of `X` with sample b's parameters.
-/
import proofs.«128579_j51539607552027_2_alg».proof.Proof.RowSpec
import Idealize.ShloMosaic.Lib.ValueIdx

noncomputable section

namespace Cert.Adapter

open Idealize.ShloMosaic Idealize.ShloMosaic.ValueIdx

abbrev T3 : Shape := ⟨3, ![32, 2048, 512]⟩
abbrev TWd : Shape := ⟨3, ![32, 64, 512]⟩
abbrev TWu : Shape := ⟨3, ![32, 512, 64]⟩
abbrev Tb64 : Shape := ⟨2, ![32, 64]⟩
abbrev Tb512 : Shape := ⟨2, ![32, 512]⟩

/-- Row (b, s) of the result, in the reference's spelling. -/
def Grow (X : T3.Idx → EReal) (Wd : TWd.Idx → EReal) (bd : Tb64.Idx → EReal) (Wu : TWu.Idx → EReal)
    (bu prew preb postw postb : Tb512.Idx → EReal) (b : Fin 32) (s : Fin 2048) : Fin 512 → EReal :=
  rowR (fun k => X (ix3 b s k)) (fun a k => Wd (ix3 b a k)) (fun a => bd (ix2 b a)) (fun d a => Wu (ix3 b d a))
    (fun d => bu (ix2 b d)) (fun d => prew (ix2 b d)) (fun d => preb (ix2 b d)) (fun d => postw (ix2 b d)) (fun d => postb (ix2 b d))

/-- The same row in the kernel's spelling. -/
def GrowK (X : T3.Idx → EReal) (Wd : TWd.Idx → EReal) (bd : Tb64.Idx → EReal) (Wu : TWu.Idx → EReal)
    (bu prew preb postw postb : Tb512.Idx → EReal) (b : Fin 32) (s : Fin 2048) : Fin 512 → EReal :=
  rowK (fun k => X (ix3 b s k)) (fun a k => Wd (ix3 b a k)) (fun a => bd (ix2 b a)) (fun d a => Wu (ix3 b d a))
    (fun d => bu (ix2 b d)) (fun d => prew (ix2 b d)) (fun d => preb (ix2 b d)) (fun d => postw (ix2 b d)) (fun d => postb (ix2 b d))

theorem GrowK_eq_Grow (X : T3.Idx → EReal) (Wd : TWd.Idx → EReal) (bd : Tb64.Idx → EReal) (Wu : TWu.Idx → EReal)
    (bu prew preb postw postb : Tb512.Idx → EReal) (b : Fin 32) (s : Fin 2048) :
    GrowK X Wd bd Wu bu prew preb postw postb b s = Grow X Wd bd Wu bu prew preb postw postb b s :=
  rowK_eq_rowR _ _ _ _ _ _ _ _ _

/-- The whole result. -/
def G (X : T3.Idx → EReal) (Wd : TWd.Idx → EReal) (bd : Tb64.Idx → EReal) (Wu : TWu.Idx → EReal)
    (bu prew preb postw postb : Tb512.Idx → EReal) : T3.Idx → EReal :=
  fun j => Grow X Wd bd Wu bu prew preb postw postb (j 0) (j 1) (j 2)

theorem G_apply (X : T3.Idx → EReal) (Wd : TWd.Idx → EReal) (bd : Tb64.Idx → EReal) (Wu : TWu.Idx → EReal)
    (bu prew preb postw postb : Tb512.Idx → EReal) (b : Fin 32) (s : Fin 2048) (d : Fin 512) :
    G X Wd bd Wu bu prew preb postw postb (ix3 b s d) = Grow X Wd bd Wu bu prew preb postw postb b s d := rfl

end Cert.Adapter

end
-- ==== Proof.KernelValue.lean ====
/-
  From the blocks to the array.  Grid point `t` of the 32 x 2 grid works on sample `t / 2` and on rows
  `1024 · (t % 2) … 1024 · (t % 2) + 1023` of it: the input and output blocks are that tile, the two matrix blocks
  and the packed parameter block are sample `t / 2`'s.  The output blocks tile the [32, 2048, 512] result, so the
  result array ends as one function of the arrays the grid reads.
-/
import proofs.«128579_j51539607552027_2_alg».proof.Proof.KernelPayload
import proofs.«128579_j51539607552027_2_alg».proof.Proof.AdapterSpec

set_option maxRecDepth 16384

noncomputable section

namespace Cert.KernelIdeal.KValue

open Cert.KernelIdeal Cert.KernelIdeal.Gen Cert.KernelIdeal.Frame Cert.KernelIdeal.Payload
open Idealize.ShloMosaic Idealize.ShloMosaic.TcCoe Idealize.SL.Sem Idealize.ShloMosaic.ValueIdx Cert.Adapter
open Idealize.ShloMosaic.Pipeline (Dat)

variable (m : (ℓ : Loc nD τ sig) → Buf (Elt Ideal) ℓ)

/-- Where each window's block sits at point `t`: the sample `t / 2` on the first axis; the row tile `t % 2` on the
    second axis of the input and output windows; block 0 otherwise. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = 0 ∧ win0_2.index t (2 : Fin 3) = 0
    ∧ win0_3.index t (0 : Fin 3) = t.val / 2 ∧ win0_3.index t (1 : Fin 3) = 0 ∧ win0_3.index t (2 : Fin 3) = 0
    ∧ win0_4.index t (0 : Fin 3) = t.val / 2 ∧ win0_4.index t (1 : Fin 3) = t.val % 2 ∧ win0_4.index t (2 : Fin 3) = 0 :=
  (by decide +kernel : ∀ t : Fin grid0.N, _)

/-- The sample of point `t`. -/
def bOf (t : Fin cfg0.N) : Fin 32 := ⟨t.val / 2, by have hN : cfg0.N = 64 := N_0; have := t.isLt; omega⟩
/-- Row `r` of point `t`'s tile, as a row of the sample. -/
def sOf (t : Fin cfg0.N) (r : Fin 1024) : Fin 2048 := ⟨1024 * (t.val % 2) + r.val, by have := r.isLt; omega⟩

/-- The input block at point `t` is the tile of the input array. -/
theorem blk0_read (c : Dev nD) (t : Fin cfg0.N) (r : Fin 1024) (k : Fin 512) :
    iblk m c 0 t (ix3 (0 : Fin 1) r k) = m ((c : Thread nD τ).loc main_arg1) (ix3 (bOf t) (sOf t r) k) := by
  obtain ⟨e0, e1, e2, -⟩ := idx_facts t
  unfold iblk
  rw [View.read_apply]
  show V m c main_arg1 _ = _
  rw [V_kept m c main_arg1 (by decide)]
  refine congrArg _ ?_
  funext a
  apply Fin.ext
  match a with
  | ⟨0, _⟩ => show win0_0.index t (0 : Fin 3) * 1 + 1 * 0 = t.val / 2; omega
  | ⟨1, _⟩ => show win0_0.index t (1 : Fin 3) * 1024 + 1 * r.val = 1024 * (t.val % 2) + r.val; omega
  | ⟨2, _⟩ => show win0_0.index t (2 : Fin 3) * 512 + 1 * k.val = k.val; omega

/-- The down-matrix block at point `t` is sample `t / 2`'s matrix. -/
theorem blk1_read (c : Dev nD) (t : Fin cfg0.N) (a : Fin 64) (k : Fin 512) :
    iblk m c 1 t (ix3 (0 : Fin 1) a k) = (V m c main_v5 : S32x64x512.Idx → EReal) (ix3 (bOf t) a k) := by
  obtain ⟨-, -, -, e0, e1, e2, -⟩ := idx_facts t
  unfold iblk
  rw [View.read_apply]
  show V m c main_v5 _ = _
  refine congrArg _ ?_
  funext x
  apply Fin.ext
  match x with
  | ⟨0, _⟩ => show win0_1.index t (0 : Fin 3) * 1 + 1 * 0 = t.val / 2; omega
  | ⟨1, _⟩ => show win0_1.index t (1 : Fin 3) * 64 + 1 * a.val = a.val; omega
  | ⟨2, _⟩ => show win0_1.index t (2 : Fin 3) * 512 + 1 * k.val = k.val; omega

/-- The up-matrix block at point `t` is sample `t / 2`'s matrix. -/
theorem blk2_read (c : Dev nD) (t : Fin cfg0.N) (d : Fin 512) (a : Fin 64) :
    iblk m c 2 t (ix3 (0 : Fin 1) d a) = (V m c main_v15 : S32x512x64.Idx → EReal) (ix3 (bOf t) d a) := by
  obtain ⟨-, -, -, -, -, -, e0, e1, e2, -⟩ := idx_facts t
  unfold iblk
  rw [View.read_apply]
  show V m c main_v15 _ = _
  refine congrArg _ ?_
  funext x
  apply Fin.ext
  match x with
  | ⟨0, _⟩ => show win0_2.index t (0 : Fin 3) * 1 + 1 * 0 = t.val / 2; omega
  | ⟨1, _⟩ => show win0_2.index t (1 : Fin 3) * 512 + 1 * d.val = d.val; omega
  | ⟨2, _⟩ => show win0_2.index t (2 : Fin 3) * 64 + 1 * a.val = a.val; omega

/-- The packed parameter block at point `t` is sample `t / 2`'s eight rows. -/
theorem blk3_read (c : Dev nD) (t : Fin cfg0.N) (o : Fin 8) (d : Fin 512) :
    iblk m c 3 t (ix3 (0 : Fin 1) o d) = (V m c main_v46 : S32x8x512.Idx → EReal) (ix3 (bOf t) o d) := by
  obtain ⟨-, -, -, -, -, -, -, -, -, e0, e1, e2, -⟩ := idx_facts t
  unfold iblk
  rw [View.read_apply]
  show V m c main_v46 _ = _
  refine congrArg _ ?_
  funext x
  apply Fin.ext
  match x with
  | ⟨0, _⟩ => show win0_3.index t (0 : Fin 3) * 1 + 1 * 0 = t.val / 2; omega
  | ⟨1, _⟩ => show win0_3.index t (1 : Fin 3) * 8 + 1 * o.val = o.val; omega
  | ⟨2, _⟩ => show win0_3.index t (2 : Fin 3) * 512 + 1 * d.val = d.val; omega

/-! ## The arrays the grid reads, named -/

variable (Wd : TWd.Idx → EReal) (bd : Tb64.Idx → EReal) (Wu : TWu.Idx → EReal) (bu prew preb postw postb : Tb512.Idx → EReal)

/-- The two matrix arrays and the rows 0..5 of the packed array are the eight parameter arrays (the first 64
    entries of row 0, for the down projection's bias). -/
structure Params (c : Dev nD) : Prop where
  wd : ∀ (b : Fin 32) (a : Fin 64) (k : Fin 512), (V m c main_v5 : S32x64x512.Idx → EReal) (ix3 b a k) = Wd (ix3 b a k)
  wu : ∀ (b : Fin 32) (d : Fin 512) (a : Fin 64), (V m c main_v15 : S32x512x64.Idx → EReal) (ix3 b d a) = Wu (ix3 b d a)
  bd : ∀ (b : Fin 32) (a : Fin 64), (V m c main_v46 : S32x8x512.Idx → EReal) (ix3 b (0 : Fin 8) (Fin.castLE (by decide : 64 ≤ 512) a)) = bd (ix2 b a)
  bu : ∀ (b : Fin 32) (d : Fin 512), (V m c main_v46 : S32x8x512.Idx → EReal) (ix3 b (1 : Fin 8) d) = bu (ix2 b d)
  prew : ∀ (b : Fin 32) (d : Fin 512), (V m c main_v46 : S32x8x512.Idx → EReal) (ix3 b (2 : Fin 8) d) = prew (ix2 b d)
  preb : ∀ (b : Fin 32) (d : Fin 512), (V m c main_v46 : S32x8x512.Idx → EReal) (ix3 b (3 : Fin 8) d) = preb (ix2 b d)
  postw : ∀ (b : Fin 32) (d : Fin 512), (V m c main_v46 : S32x8x512.Idx → EReal) (ix3 b (4 : Fin 8) d) = postw (ix2 b d)
  postb : ∀ (b : Fin 32) (d : Fin 512), (V m c main_v46 : S32x8x512.Idx → EReal) (ix3 b (5 : Fin 8) d) = postb (ix2 b d)

/-! ## What a point writes back, the cover, and the array -/

/-- Point `t` writes back the tile of `G`: row `r` of the output block is the row function of row
    `1024 · (t % 2) + r` of sample `t / 2`. -/
theorem flushed_eq (c : Dev nD) (P : Params m Wd bd Wu bu prew preb postw postb c) (t : Fin cfg0.N) :
    (dats m 0 c).flushed 4 t
      = ((cfg0.win 4).blk t).view.read (Elt Ideal) (G (m ((c : Thread nD τ).loc main_arg1)) Wd bd Wu bu prew preb postw postb) := by
  obtain ⟨-, -, -, -, -, -, -, -, -, -, -, -, e0, e1, e2⟩ := idx_facts t
  show (cfg0.win 4).cut (grid0.coords t) ((dats m 0 c).after 4 t) = _
  rw [after0_4]
  funext j
  obtain ⟨z, r, d, rfl⟩ : ∃ (z : Fin 1) (r : Fin 1024) (d : Fin 512), j = ix3 z r d := ⟨j 0, j 1, j 2, eq_ix3 j⟩
  obtain rfl : z = 0 := Subsingleton.elim _ _
  rw [View.read_apply]
  have hemb : ((cfg0.win 4).blk t).view.emb (ix3 (0 : Fin 1) r d) = ix3 (bOf t) (sOf t r) d := by
    funext a
    apply Fin.ext
    match a with
    | ⟨0, _⟩ => show win0_4.index t (0 : Fin 3) * 1 + 1 * 0 = t.val / 2; omega
    | ⟨1, _⟩ => show win0_4.index t (1 : Fin 3) * 1024 + 1 * r.val = 1024 * (t.val % 2) + r.val; omega
    | ⟨2, _⟩ => show win0_4.index t (2 : Fin 3) * 512 + 1 * d.val = d.val; omega
  rw [hemb, G_apply, ← GrowK_eq_Grow]
  refine (out4_apply (iblk m c 0 t) (iblk m c 1 t) (iblk m c 2 t) (iblk m c 3 t) r d).trans ?_
  unfold GrowK
  simp only [blk0_read, blk1_read, blk2_read, blk3_read, P.wd, P.wu, P.bd, P.bu, P.prew, P.preb, P.postw, P.postb]
  exact (cast_eq _ _).symm

/-- An entry of the result lies in point `t`'s block iff each coordinate lies in the block's range. -/
theorem mem_blk (t : Fin cfg0.N) (i : S32x2048x512.Idx) :
    i ∈ ((cfg0.win 4).blk t).view.set ↔ ∀ a : Fin 3, win0_4.index t a * S1x1024x512.size a ≤ (i a).val
      ∧ (i a).val < win0_4.index t a * S1x1024x512.size a + S1x1024x512.size a := by
  show i ∈ ((View.whole main_v47).slice (win0_4.rect t)).set ↔ _
  rw [View.set_slice_whole, Rect.mem_set_unit]
  exact Iff.rfl

/-- Every entry (b, s, d) of the result is in the block of point `2 b + s / 1024`, which writes back. -/
theorem cover (i : S32x2048x512.Idx) :
    ∃ t : Fin cfg0.N, (cfg0.win 4).flush t = true ∧ i ∈ ((cfg0.win 4).blk t).view.set := by
  have h0 : (i 0).val < 32 := (i 0).isLt
  have h1 : (i 1).val < 2048 := (i 1).isLt
  have h2 : (i 2).val < 512 := (i 2).isLt
  have hN : cfg0.N = 64 := N_0
  have ht : 2 * (i 0).val + (i 1).val / 1024 < cfg0.N := by omega
  obtain ⟨-, -, -, -, -, -, -, -, -, -, -, -, e0, e1, e2⟩ := idx_facts ⟨2 * (i 0).val + (i 1).val / 1024, ht⟩
  refine ⟨⟨2 * (i 0).val + (i 1).val / 1024, ht⟩, flush0_4 _, ?_⟩
  rw [mem_blk]
  have v : (⟨2 * (i 0).val + (i 1).val / 1024, ht⟩ : Fin cfg0.N).val = 2 * (i 0).val + (i 1).val / 1024 := rfl
  rw [v] at e0 e1
  intro a
  match a with
  | ⟨0, _⟩ =>
    show win0_4.index ⟨2 * (i 0).val + (i 1).val / 1024, ht⟩ (0 : Fin 3) * 1 ≤ (i 0).val
      ∧ (i 0).val < win0_4.index ⟨2 * (i 0).val + (i 1).val / 1024, ht⟩ (0 : Fin 3) * 1 + 1
    omega
  | ⟨1, _⟩ =>
    show win0_4.index ⟨2 * (i 0).val + (i 1).val / 1024, ht⟩ (1 : Fin 3) * 1024 ≤ (i 1).val
      ∧ (i 1).val < win0_4.index ⟨2 * (i 0).val + (i 1).val / 1024, ht⟩ (1 : Fin 3) * 1024 + 1024
    omega
  | ⟨2, _⟩ =>
    show win0_4.index ⟨2 * (i 0).val + (i 1).val / 1024, ht⟩ (2 : Fin 3) * 512 ≤ (i 2).val
      ∧ (i 2).val < win0_4.index ⟨2 * (i 0).val + (i 1).val / 1024, ht⟩ (2 : Fin 3) * 512 + 512
    omega

/-- The result array after the run is `G` of the input array and the parameter arrays. -/
theorem final (c : Dev nD) (P : Params m Wd bd Wu bu prew preb postw postb c) :
    (dats m 0 c).arrAt 4 cfg0.N = G (m ((c : Thread nD τ).loc main_arg1)) Wd bd Wu bu prew preb postw postb :=
  (dats m 0 c).arrAt_eq_of_cover 4 _ (fun t _ => flushed_eq m Wd bd Wu bu prew preb postw postb c P t) cover

end Cert.KernelIdeal.KValue

end
-- ==== Proof.KernelHost.lean ====
/-
  What the kernel program's host lines leave in the three arrays its grid reads, in terms of the reference's stages.
  Both programs build the per-sample parameters by the same lines: a product of the [32, 64] conditioning array with
  a weight array, plus a bias broadcast over the samples, reshaped where the parameter is a matrix.  So the kernel's
  down and up projection arrays are the reference's stages as whole arrays (the narrowing to 16 bits is the identity
  on the extended reals), and the packed [32, 8, 512] array, eight [32, 1, 512] pieces joined along the middle axis,
  holds in rows 0 to 5 of sample b the six parameter vectors of sample b: row 0 the down projection's bias followed by
  zeros, rows 1 to 5 the up projection's bias and the two normalizations' scales and shifts (rows 6 and 7 are
  the float zero word broadcast; nothing is proved about them here).
-/
import proofs.«128579_j51539607552027_2_alg».proof.Proof.KernelIdealFrame
import proofs.«128579_j51539607552027_2_alg».proof.Proof.Gen.ReferenceIdeal.Read
import Idealize.ShloMosaic.Lib.StableHlo.Run
import Idealize.ShloMosaic.Lib.Pipeline.Value
import Idealize.ShloMosaic.Lib.KernelVsHost
import Idealize.ShloMosaic.Lib.ValueIdx
import Idealize.ShloMosaic.PureOps.Ideal

set_option maxRecDepth 16384

noncomputable section

namespace Cert.KernelIdeal.HostSide

open Cert.KernelIdeal Cert.KernelIdeal.Gen Cert.KernelIdeal.Frame Idealize.ShloMosaic Idealize.ShloMosaic.TcCoe Idealize.SL.Sem
  Idealize.ShloMosaic.StableHlo Idealize.ShloMosaic.ValueIdx

variable (m : (ℓ : Loc nD τ sig) → Buf (Elt Ideal) ℓ) (c : Dev nD)

set_option quotPrecheck false
local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)
local notation "a12" => m ((c : Thread nD τ).loc main_arg12)
local notation "a13" => m ((c : Thread nD τ).loc main_arg13)
local notation "a14" => m ((c : Thread nD τ).loc main_arg14)
local notation "a15" => m ((c : Thread nD τ).loc main_arg15)
local notation "a16" => m ((c : Thread nD τ).loc main_arg16)
local notation "a17" => m ((c : Thread nD τ).loc main_arg17)
set_option quotPrecheck true

/-- The one coordinate of an axis of size one. -/
abbrev o1 : Fin 1 := ⟨0, Nat.one_pos⟩

/-- Rewrites each host line's result at its own buffer to the line's function of its operands, and at any other
    buffer to what was there before the line. -/
local macro "host_results" : tactic =>
  `(tactic| simp (disch := decide) only [nullary_result', unary_result', binary_result', reshape_result',
      nullary_result_ne', unary_result_ne', binary_result_ne', reshape_result_ne', nary_result_ne'])

/-! ### The two projection arrays -/

/-- The down projection: the kernel's array is the reference's stage (the narrowing to 16 bits is the identity on
    the extended reals). -/
theorem V_wd : (V m c main_v5 : S32x64x512.Idx → EReal) = Cert.ReferenceIdeal.Read.val_main_v4 (F := Ideal) a0 a2 a3 := by
  dsimp only [V]
  simp only [hostOps0, hostOps0_1, hostOps0_2, List.flatten_cons, List.flatten_nil, List.append_nil, List.cons_append, List.nil_append]
  after_results_simp
  unfold Cert.ReferenceIdeal.Read.val_main_v4 Cert.ReferenceIdeal.Read.val_main_v3 Cert.ReferenceIdeal.Read.val_main_v2 Cert.ReferenceIdeal.Read.val_main_v1 Cert.ReferenceIdeal.Read.val_main_v0
  rfl

/-- The up projection, likewise. -/
theorem V_wu : (V m c main_v15 : S32x512x64.Idx → EReal) = Cert.ReferenceIdeal.Read.val_main_v13 (F := Ideal) a0 a6 a7 := by
  dsimp only [V]
  simp only [hostOps0, hostOps0_1, hostOps0_2, List.flatten_cons, List.flatten_nil, List.append_nil, List.cons_append, List.nil_append]
  after_results_simp
  unfold Cert.ReferenceIdeal.Read.val_main_v13 Cert.ReferenceIdeal.Read.val_main_v12 Cert.ReferenceIdeal.Read.val_main_v11 Cert.ReferenceIdeal.Read.val_main_v10 Cert.ReferenceIdeal.Read.val_main_v9
  rfl

/-! ### The packed array of vectors: eight [32, 1, 512] pieces joined along the middle axis -/

theorem cat8_0 {α : Type} (p0 p1 p2 p3 p4 p5 p6 p7 : S32x1x512.Idx → α)
    (h : Shape.Concatenates [S32x1x512, S32x1x512, S32x1x512, S32x1x512, S32x1x512, S32x1x512, S32x1x512, S32x1x512] S32x8x512 1)
    (b : Fin 32) (d : Fin 512) :
    concatenate S32x8x512 1 [⟨S32x1x512, p0⟩, ⟨S32x1x512, p1⟩, ⟨S32x1x512, p2⟩, ⟨S32x1x512, p3⟩, ⟨S32x1x512, p4⟩, ⟨S32x1x512, p5⟩, ⟨S32x1x512, p6⟩, ⟨S32x1x512, p7⟩] h (ix3 b (0 : Fin 8) d) = p0 (ix3 b o1 d) :=
  concatenate_apply_piece (t := S32x8x512) (a := 1) [⟨S32x1x512, p0⟩, ⟨S32x1x512, p1⟩, ⟨S32x1x512, p2⟩, ⟨S32x1x512, p3⟩, ⟨S32x1x512, p4⟩, ⟨S32x1x512, p5⟩, ⟨S32x1x512, p6⟩, ⟨S32x1x512, p7⟩] h (ix3 b (0 : Fin 8) d) 0 (by simp) S32x1x512 p0 rfl rfl 0 rfl (ix3 b o1 d)
    (fun e he => match e, he with | ⟨0, _⟩, _ => rfl | ⟨1, _⟩, he => absurd rfl he | ⟨2, _⟩, _ => rfl) rfl

theorem cat8_1 {α : Type} (p0 p1 p2 p3 p4 p5 p6 p7 : S32x1x512.Idx → α)
    (h : Shape.Concatenates [S32x1x512, S32x1x512, S32x1x512, S32x1x512, S32x1x512, S32x1x512, S32x1x512, S32x1x512] S32x8x512 1)
    (b : Fin 32) (d : Fin 512) :
    concatenate S32x8x512 1 [⟨S32x1x512, p0⟩, ⟨S32x1x512, p1⟩, ⟨S32x1x512, p2⟩, ⟨S32x1x512, p3⟩, ⟨S32x1x512, p4⟩, ⟨S32x1x512, p5⟩, ⟨S32x1x512, p6⟩, ⟨S32x1x512, p7⟩] h (ix3 b (1 : Fin 8) d) = p1 (ix3 b o1 d) :=
  concatenate_apply_piece (t := S32x8x512) (a := 1) [⟨S32x1x512, p0⟩, ⟨S32x1x512, p1⟩, ⟨S32x1x512, p2⟩, ⟨S32x1x512, p3⟩, ⟨S32x1x512, p4⟩, ⟨S32x1x512, p5⟩, ⟨S32x1x512, p6⟩, ⟨S32x1x512, p7⟩] h (ix3 b (1 : Fin 8) d) 1 (by simp) S32x1x512 p1 rfl rfl 1 rfl (ix3 b o1 d)
    (fun e he => match e, he with | ⟨0, _⟩, _ => rfl | ⟨1, _⟩, he => absurd rfl he | ⟨2, _⟩, _ => rfl) rfl

theorem cat8_2 {α : Type} (p0 p1 p2 p3 p4 p5 p6 p7 : S32x1x512.Idx → α)
    (h : Shape.Concatenates [S32x1x512, S32x1x512, S32x1x512, S32x1x512, S32x1x512, S32x1x512, S32x1x512, S32x1x512] S32x8x512 1)
    (b : Fin 32) (d : Fin 512) :
    concatenate S32x8x512 1 [⟨S32x1x512, p0⟩, ⟨S32x1x512, p1⟩, ⟨S32x1x512, p2⟩, ⟨S32x1x512, p3⟩, ⟨S32x1x512, p4⟩, ⟨S32x1x512, p5⟩, ⟨S32x1x512, p6⟩, ⟨S32x1x512, p7⟩] h (ix3 b (2 : Fin 8) d) = p2 (ix3 b o1 d) :=
  concatenate_apply_piece (t := S32x8x512) (a := 1) [⟨S32x1x512, p0⟩, ⟨S32x1x512, p1⟩, ⟨S32x1x512, p2⟩, ⟨S32x1x512, p3⟩, ⟨S32x1x512, p4⟩, ⟨S32x1x512, p5⟩, ⟨S32x1x512, p6⟩, ⟨S32x1x512, p7⟩] h (ix3 b (2 : Fin 8) d) 2 (by simp) S32x1x512 p2 rfl rfl 2 rfl (ix3 b o1 d)
    (fun e he => match e, he with | ⟨0, _⟩, _ => rfl | ⟨1, _⟩, he => absurd rfl he | ⟨2, _⟩, _ => rfl) rfl

theorem cat8_3 {α : Type} (p0 p1 p2 p3 p4 p5 p6 p7 : S32x1x512.Idx → α)
    (h : Shape.Concatenates [S32x1x512, S32x1x512, S32x1x512, S32x1x512, S32x1x512, S32x1x512, S32x1x512, S32x1x512] S32x8x512 1)
    (b : Fin 32) (d : Fin 512) :
    concatenate S32x8x512 1 [⟨S32x1x512, p0⟩, ⟨S32x1x512, p1⟩, ⟨S32x1x512, p2⟩, ⟨S32x1x512, p3⟩, ⟨S32x1x512, p4⟩, ⟨S32x1x512, p5⟩, ⟨S32x1x512, p6⟩, ⟨S32x1x512, p7⟩] h (ix3 b (3 : Fin 8) d) = p3 (ix3 b o1 d) :=
  concatenate_apply_piece (t := S32x8x512) (a := 1) [⟨S32x1x512, p0⟩, ⟨S32x1x512, p1⟩, ⟨S32x1x512, p2⟩, ⟨S32x1x512, p3⟩, ⟨S32x1x512, p4⟩, ⟨S32x1x512, p5⟩, ⟨S32x1x512, p6⟩, ⟨S32x1x512, p7⟩] h (ix3 b (3 : Fin 8) d) 3 (by simp) S32x1x512 p3 rfl rfl 3 rfl (ix3 b o1 d)
    (fun e he => match e, he with | ⟨0, _⟩, _ => rfl | ⟨1, _⟩, he => absurd rfl he | ⟨2, _⟩, _ => rfl) rfl

theorem cat8_4 {α : Type} (p0 p1 p2 p3 p4 p5 p6 p7 : S32x1x512.Idx → α)
    (h : Shape.Concatenates [S32x1x512, S32x1x512, S32x1x512, S32x1x512, S32x1x512, S32x1x512, S32x1x512, S32x1x512] S32x8x512 1)
    (b : Fin 32) (d : Fin 512) :
    concatenate S32x8x512 1 [⟨S32x1x512, p0⟩, ⟨S32x1x512, p1⟩, ⟨S32x1x512, p2⟩, ⟨S32x1x512, p3⟩, ⟨S32x1x512, p4⟩, ⟨S32x1x512, p5⟩, ⟨S32x1x512, p6⟩, ⟨S32x1x512, p7⟩] h (ix3 b (4 : Fin 8) d) = p4 (ix3 b o1 d) :=
  concatenate_apply_piece (t := S32x8x512) (a := 1) [⟨S32x1x512, p0⟩, ⟨S32x1x512, p1⟩, ⟨S32x1x512, p2⟩, ⟨S32x1x512, p3⟩, ⟨S32x1x512, p4⟩, ⟨S32x1x512, p5⟩, ⟨S32x1x512, p6⟩, ⟨S32x1x512, p7⟩] h (ix3 b (4 : Fin 8) d) 4 (by simp) S32x1x512 p4 rfl rfl 4 rfl (ix3 b o1 d)
    (fun e he => match e, he with | ⟨0, _⟩, _ => rfl | ⟨1, _⟩, he => absurd rfl he | ⟨2, _⟩, _ => rfl) rfl

theorem cat8_5 {α : Type} (p0 p1 p2 p3 p4 p5 p6 p7 : S32x1x512.Idx → α)
    (h : Shape.Concatenates [S32x1x512, S32x1x512, S32x1x512, S32x1x512, S32x1x512, S32x1x512, S32x1x512, S32x1x512] S32x8x512 1)
    (b : Fin 32) (d : Fin 512) :
    concatenate S32x8x512 1 [⟨S32x1x512, p0⟩, ⟨S32x1x512, p1⟩, ⟨S32x1x512, p2⟩, ⟨S32x1x512, p3⟩, ⟨S32x1x512, p4⟩, ⟨S32x1x512, p5⟩, ⟨S32x1x512, p6⟩, ⟨S32x1x512, p7⟩] h (ix3 b (5 : Fin 8) d) = p5 (ix3 b o1 d) :=
  concatenate_apply_piece (t := S32x8x512) (a := 1) [⟨S32x1x512, p0⟩, ⟨S32x1x512, p1⟩, ⟨S32x1x512, p2⟩, ⟨S32x1x512, p3⟩, ⟨S32x1x512, p4⟩, ⟨S32x1x512, p5⟩, ⟨S32x1x512, p6⟩, ⟨S32x1x512, p7⟩] h (ix3 b (5 : Fin 8) d) 5 (by simp) S32x1x512 p5 rfl rfl 5 rfl (ix3 b o1 d)
    (fun e he => match e, he with | ⟨0, _⟩, _ => rfl | ⟨1, _⟩, he => absurd rfl he | ⟨2, _⟩, _ => rfl) rfl

/-! ### Its rows -/

/-- Row 0 is the down projection's bias, its 64 entries followed by zeros: entry a < 64 of the row is entry a of
    the bias. -/
theorem V_bd (b : Fin 32) (a : Fin 64) :
    (V m c main_v46 : S32x8x512.Idx → EReal) (ix3 b (0 : Fin 8) (Fin.castLE (by decide : 64 ≤ 512) a))
      = Cert.ReferenceIdeal.Read.val_main_v8 (F := Ideal) a0 a4 a5 (ix2 b a) := by
  dsimp only [V]
  simp only [hostOps0, hostOps0_1, hostOps0_2, List.flatten_cons, List.flatten_nil, List.append_nil, List.cons_append, List.nil_append]
  simp only [after_cons, after_nil]
  rw [nary_result]
  refine (cat8_0 _ _ _ _ _ _ _ _ _ b _).trans ?_
  change (_ : Valuation τ sig (Elt Ideal)) (Proc.devRef .tc main_v38) (ix3 b o1 (Fin.castLE (by decide : 64 ≤ 512) a)) = _
  host_results
  refine (broadcastInDim_apply _ _ _ _ (ix2 b (Fin.castLE (by decide : 64 ≤ 512) a))
    (fun e => match e with | ⟨0, _⟩ => rfl | ⟨1, _⟩ => rfl)).trans ?_
  refine (pad_apply_of_inside (t := S32x512) ![0, 0] ![0, 448] ![0, 0] _ _ pads_S32x64_S32x512_000_04480 h_S_
    (ix2 b (Fin.castLE (by decide : 64 ≤ 512) a)) (ix2 b a) (fun e => match e with
    | ⟨0, _⟩ => (by show b.val = 0 + b.val * (0 + 1); omega)
    | ⟨1, _⟩ => (by show a.val = 0 + a.val * (0 + 1); omega))).trans ?_
  unfold Cert.ReferenceIdeal.Read.val_main_v8 Cert.ReferenceIdeal.Read.val_main_v7 Cert.ReferenceIdeal.Read.val_main_v6 Cert.ReferenceIdeal.Read.val_main_v5
  rfl

/-- Row 1 is the up projection's bias. -/
theorem V_bu (b : Fin 32) (d : Fin 512) :
    (V m c main_v46 : S32x8x512.Idx → EReal) (ix3 b (1 : Fin 8) d) = Cert.ReferenceIdeal.Read.val_main_v17 (F := Ideal) a0 a8 a9 (ix2 b d) := by
  dsimp only [V]
  simp only [hostOps0, hostOps0_1, hostOps0_2, List.flatten_cons, List.flatten_nil, List.append_nil, List.cons_append, List.nil_append]
  simp only [after_cons, after_nil]
  rw [nary_result]
  refine (cat8_1 _ _ _ _ _ _ _ _ _ b d).trans ?_
  change (_ : Valuation τ sig (Elt Ideal)) (Proc.devRef .tc main_v39) (ix3 b o1 d) = _
  host_results
  refine (broadcastInDim_apply _ _ _ _ (ix2 b d) (fun e => match e with | ⟨0, _⟩ => rfl | ⟨1, _⟩ => rfl)).trans ?_
  unfold Cert.ReferenceIdeal.Read.val_main_v17 Cert.ReferenceIdeal.Read.val_main_v16 Cert.ReferenceIdeal.Read.val_main_v15 Cert.ReferenceIdeal.Read.val_main_v14
  rfl

/-- Row 2 is the first normalization's scale. -/
theorem V_prew (b : Fin 32) (d : Fin 512) :
    (V m c main_v46 : S32x8x512.Idx → EReal) (ix3 b (2 : Fin 8) d) = Cert.ReferenceIdeal.Read.val_main_v21 (F := Ideal) a0 a10 a11 (ix2 b d) := by
  dsimp only [V]
  simp only [hostOps0, hostOps0_1, hostOps0_2, List.flatten_cons, List.flatten_nil, List.append_nil, List.cons_append, List.nil_append]
  simp only [after_cons, after_nil]
  rw [nary_result]
  refine (cat8_2 _ _ _ _ _ _ _ _ _ b d).trans ?_
  change (_ : Valuation τ sig (Elt Ideal)) (Proc.devRef .tc main_v40) (ix3 b o1 d) = _
  host_results
  refine (broadcastInDim_apply _ _ _ _ (ix2 b d) (fun e => match e with | ⟨0, _⟩ => rfl | ⟨1, _⟩ => rfl)).trans ?_
  unfold Cert.ReferenceIdeal.Read.val_main_v21 Cert.ReferenceIdeal.Read.val_main_v20 Cert.ReferenceIdeal.Read.val_main_v19 Cert.ReferenceIdeal.Read.val_main_v18
  rfl

/-- Row 3 is the first normalization's shift. -/
theorem V_preb (b : Fin 32) (d : Fin 512) :
    (V m c main_v46 : S32x8x512.Idx → EReal) (ix3 b (3 : Fin 8) d) = Cert.ReferenceIdeal.Read.val_main_v25 (F := Ideal) a0 a12 a13 (ix2 b d) := by
  dsimp only [V]
  simp only [hostOps0, hostOps0_1, hostOps0_2, List.flatten_cons, List.flatten_nil, List.append_nil, List.cons_append, List.nil_append]
  simp only [after_cons, after_nil]
  rw [nary_result]
  refine (cat8_3 _ _ _ _ _ _ _ _ _ b d).trans ?_
  change (_ : Valuation τ sig (Elt Ideal)) (Proc.devRef .tc main_v41) (ix3 b o1 d) = _
  host_results
  refine (broadcastInDim_apply _ _ _ _ (ix2 b d) (fun e => match e with | ⟨0, _⟩ => rfl | ⟨1, _⟩ => rfl)).trans ?_
  unfold Cert.ReferenceIdeal.Read.val_main_v25 Cert.ReferenceIdeal.Read.val_main_v24 Cert.ReferenceIdeal.Read.val_main_v23 Cert.ReferenceIdeal.Read.val_main_v22
  rfl

/-- Row 4 is the second normalization's scale. -/
theorem V_postw (b : Fin 32) (d : Fin 512) :
    (V m c main_v46 : S32x8x512.Idx → EReal) (ix3 b (4 : Fin 8) d) = Cert.ReferenceIdeal.Read.val_main_v62 (F := Ideal) a0 a14 a15 (ix2 b d) := by
  dsimp only [V]
  simp only [hostOps0, hostOps0_1, hostOps0_2, List.flatten_cons, List.flatten_nil, List.append_nil, List.cons_append, List.nil_append]
  simp only [after_cons, after_nil]
  rw [nary_result]
  refine (cat8_4 _ _ _ _ _ _ _ _ _ b d).trans ?_
  change (_ : Valuation τ sig (Elt Ideal)) (Proc.devRef .tc main_v42) (ix3 b o1 d) = _
  host_results
  refine (broadcastInDim_apply _ _ _ _ (ix2 b d) (fun e => match e with | ⟨0, _⟩ => rfl | ⟨1, _⟩ => rfl)).trans ?_
  unfold Cert.ReferenceIdeal.Read.val_main_v62 Cert.ReferenceIdeal.Read.val_main_v61 Cert.ReferenceIdeal.Read.val_main_v60 Cert.ReferenceIdeal.Read.val_main_v59
  rfl

/-- Row 5 is the second normalization's shift. -/
theorem V_postb (b : Fin 32) (d : Fin 512) :
    (V m c main_v46 : S32x8x512.Idx → EReal) (ix3 b (5 : Fin 8) d) = Cert.ReferenceIdeal.Read.val_main_v66 (F := Ideal) a0 a16 a17 (ix2 b d) := by
  dsimp only [V]
  simp only [hostOps0, hostOps0_1, hostOps0_2, List.flatten_cons, List.flatten_nil, List.append_nil, List.cons_append, List.nil_append]
  simp only [after_cons, after_nil]
  rw [nary_result]
  refine (cat8_5 _ _ _ _ _ _ _ _ _ b d).trans ?_
  change (_ : Valuation τ sig (Elt Ideal)) (Proc.devRef .tc main_v43) (ix3 b o1 d) = _
  host_results
  refine (broadcastInDim_apply _ _ _ _ (ix2 b d) (fun e => match e with | ⟨0, _⟩ => rfl | ⟨1, _⟩ => rfl)).trans ?_
  unfold Cert.ReferenceIdeal.Read.val_main_v66 Cert.ReferenceIdeal.Read.val_main_v65 Cert.ReferenceIdeal.Read.val_main_v64 Cert.ReferenceIdeal.Read.val_main_v63
  rfl

end Cert.KernelIdeal.HostSide

end
-- ==== Proof.RefValue.lean ====
/-
  The reference's result, read at an index (b, s, d), is the row function of row (b, s) of the input with sample b's
  parameters.  The proof follows the reference one layer at a time: the first normalization (the row's mean, its mean
  square about the mean plus the small constant, the division by the root, the scale and the shift), the rectified
  projection down (a sum over the 512 entries of the row, plus the bias, maximum with zero), the projection up (a sum
  over the 64 entries), the second normalization of that row, and the final addition of the input row.  Each layer
  reads its operands at indices that are, coordinate by coordinate, the indices (b, s, k), (b, a, k), (b, a) ... of
  the row function; each float sum starts from the float zero, which is the real zero, and `0 + x = x`.
-/
import proofs.«128579_j51539607552027_2_alg».proof.Proof.Gen.ReferenceIdeal.Read
import proofs.«128579_j51539607552027_2_alg».proof.Proof.AdapterSpec

noncomputable section

namespace Cert.ReferenceIdeal.RefValue

open Cert.ReferenceIdeal Cert.ReferenceIdeal.Read Idealize.ShloMosaic Idealize.ShloMosaic.ValueIdx Cert.Adapter
open scoped BigOperators

/-- The one coordinate of an axis of size one. -/
abbrev o1 : Fin 1 := ⟨0, Nat.one_pos⟩

variable (x0 : (⟨S32x64, .f32⟩ : BufTy).Contents (Elt Ideal)) (x1 : (⟨S32x2048x512, .f32⟩ : BufTy).Contents (Elt Ideal)) (x2 : (⟨S64x32768, .f32⟩ : BufTy).Contents (Elt Ideal)) (x3 : (⟨S32768, .f32⟩ : BufTy).Contents (Elt Ideal)) (x4 : (⟨S64x64, .f32⟩ : BufTy).Contents (Elt Ideal)) (x5 : (⟨S64, .f32⟩ : BufTy).Contents (Elt Ideal)) (x6 : (⟨S64x32768, .f32⟩ : BufTy).Contents (Elt Ideal)) (x7 : (⟨S32768, .f32⟩ : BufTy).Contents (Elt Ideal)) (x8 : (⟨S64x512, .f32⟩ : BufTy).Contents (Elt Ideal)) (x9 : (⟨S512, .f32⟩ : BufTy).Contents (Elt Ideal)) (x10 : (⟨S64x512, .f32⟩ : BufTy).Contents (Elt Ideal)) (x11 : (⟨S512, .f32⟩ : BufTy).Contents (Elt Ideal)) (x12 : (⟨S64x512, .f32⟩ : BufTy).Contents (Elt Ideal)) (x13 : (⟨S512, .f32⟩ : BufTy).Contents (Elt Ideal)) (x14 : (⟨S64x512, .f32⟩ : BufTy).Contents (Elt Ideal)) (x15 : (⟨S512, .f32⟩ : BufTy).Contents (Elt Ideal)) (x16 : (⟨S64x512, .f32⟩ : BufTy).Contents (Elt Ideal)) (x17 : (⟨S512, .f32⟩ : BufTy).Contents (Elt Ideal))
variable (b : Fin 32) (s : Fin 2048)

/-! ### The first normalization -/

theorem idx26 (k : Fin 512) : idx_main_v26 (idx_main_v27 (ix3 b s o1)) k = ix3 b s k := by
  funext a; match a with | ⟨0, _⟩ => rfl | ⟨1, _⟩ => rfl | ⟨2, _⟩ => rfl

/-- The row's mean. -/
theorem L29 : val_main_v29 (F := Ideal) x1 (ix3 b s o1) = mean (fun k => x1 (ix3 b s k)) := by
  rw [val_main_v29_apply, val_main_v27_apply, val_main_v26_apply, val_main_v28_apply, val_main_cst_0_apply, val_main_cst_apply]
  simp only [idx26, Ideal.hostDivf_def, Ideal.ofBits_def, Ideal.ofBits_zero_f32, zero_add]
  rfl

theorem idx30 (d : Fin 512) : idx_main_v30 (ix3 b s d) = ix3 b s o1 := by
  funext a; match a with | ⟨0, _⟩ => rfl | ⟨1, _⟩ => rfl | ⟨2, _⟩ => rfl

theorem idx33 (k : Fin 512) : idx_main_v33 (idx_main_v34 (ix3 b s o1)) k = ix3 b s k := by
  funext a; match a with | ⟨0, _⟩ => rfl | ⟨1, _⟩ => rfl | ⟨2, _⟩ => rfl

/-- An entry less the row's mean. -/
theorem L31 (d : Fin 512) : val_main_v31 (F := Ideal) x1 (ix3 b s d) = x1 (ix3 b s d) - mean (fun k => x1 (ix3 b s k)) := by
  rw [val_main_v31_apply, val_main_v30_apply, idx30, L29]
  rfl

/-- The row's mean square about its mean, plus the small constant. -/
theorem L38 : val_main_v38 (F := Ideal) x1 (ix3 b s o1) = var (fun k => x1 (ix3 b s k)) := by
  rw [val_main_v38_apply, val_main_v36_apply, val_main_v34_apply, val_main_v33_apply, val_main_v35_apply, val_main_cst_2_apply,
    val_main_v37_apply, val_main_cst_3_apply, val_main_cst_1_apply]
  simp only [idx33, val_main_v32_apply, L31, Ideal.hostDivf_def, Ideal.addf_def, Ideal.mulf_def, Ideal.ofBits_def,
    Ideal.ofBits_zero_f32, zero_add]
  rfl

theorem idx39 (d : Fin 512) : idx_main_v39 (ix3 b s d) = ix3 b s o1 := by
  funext a; match a with | ⟨0, _⟩ => rfl | ⟨1, _⟩ => rfl | ⟨2, _⟩ => rfl

theorem idx42 (d : Fin 512) : idx_main_v42 (ix3 b s d) = ix3 b s o1 := by
  funext a; match a with | ⟨0, _⟩ => rfl | ⟨1, _⟩ => rfl | ⟨2, _⟩ => rfl

theorem idx44 (d : Fin 512) : idx_main_v44 (idx_main_v45 (ix3 b s d)) = ix2 b d := by
  funext a; match a with | ⟨0, _⟩ => rfl | ⟨1, _⟩ => rfl

theorem idx47 (d : Fin 512) : idx_main_v47 (idx_main_v48 (ix3 b s d)) = ix2 b d := by
  funext a; match a with | ⟨0, _⟩ => rfl | ⟨1, _⟩ => rfl

/-- The normalized, scaled and shifted row. -/
theorem L49 (d : Fin 512) : val_main_v49 (F := Ideal) x0 x1 x10 x11 x12 x13 (ix3 b s d) = lnR (fun k => x1 (ix3 b s k)) (fun e => val_main_v21 (F := Ideal) x0 x10 x11 (ix2 b e)) (fun e => val_main_v25 (F := Ideal) x0 x12 x13 (ix2 b e)) d := by
  rw [val_main_v49_apply, val_main_v46_apply, val_main_v43_apply, val_main_v40_apply, val_main_v39_apply, val_main_v42_apply,
    val_main_v41_apply, val_main_v45_apply, val_main_v44_apply, val_main_v48_apply, val_main_v47_apply,
    idx39, idx42, idx44, idx47, L29, L38]
  rfl

/-! ### The two projections -/

theorem lidx50 (a : Fin 64) (k : Fin 512) : lidx_main_v50 (ix3 b s a) k = ix3 b s k := by
  funext c; match c with | ⟨0, _⟩ => rfl | ⟨1, _⟩ => rfl | ⟨2, _⟩ => rfl

theorem ridx50 (a : Fin 64) (k : Fin 512) : ridx_main_v50 (ix3 b s a) k = ix3 b a k := by
  funext c; match c with | ⟨0, _⟩ => rfl | ⟨1, _⟩ => rfl | ⟨2, _⟩ => rfl

theorem idx51 (a : Fin 64) : idx_main_v51 (idx_main_v52 (ix3 b s a)) = ix2 b a := by
  funext c; match c with | ⟨0, _⟩ => rfl | ⟨1, _⟩ => rfl

/-- The rectified projection down to 64 entries. -/
theorem L54 (a : Fin 64) : val_main_v54 (F := Ideal) x0 x1 x2 x3 x4 x5 x10 x11 x12 x13 (ix3 b s a) = mid (lnR (fun k => x1 (ix3 b s k)) (fun e => val_main_v21 (F := Ideal) x0 x10 x11 (ix2 b e)) (fun e => val_main_v25 (F := Ideal) x0 x12 x13 (ix2 b e))) (fun a k => val_main_v4 (F := Ideal) x0 x2 x3 (ix3 b a k)) (fun a => val_main_v8 (F := Ideal) x0 x4 x5 (ix2 b a)) a := by
  rw [val_main_v54_apply, val_main_v53_apply, val_main_v50_apply, val_main_v52_apply, val_main_v51_apply, idx51,
    val_main_call0_v0_apply, val_main_call0_cst_apply]
  simp only [lidx50, ridx50, L49]
  rfl

theorem lidx55 (d : Fin 512) (a : Fin 64) : lidx_main_v55 (ix3 b s d) a = ix3 b s a := by
  funext c; match c with | ⟨0, _⟩ => rfl | ⟨1, _⟩ => rfl | ⟨2, _⟩ => rfl

theorem ridx55 (d : Fin 512) (a : Fin 64) : ridx_main_v55 (ix3 b s d) a = ix3 b d a := by
  funext c; match c with | ⟨0, _⟩ => rfl | ⟨1, _⟩ => rfl | ⟨2, _⟩ => rfl

theorem idx56 (d : Fin 512) : idx_main_v56 (idx_main_v57 (ix3 b s d)) = ix2 b d := by
  funext a; match a with | ⟨0, _⟩ => rfl | ⟨1, _⟩ => rfl

/-- The projection back up to 512 entries. -/
theorem L58 (d : Fin 512) : val_main_v58 (F := Ideal) x0 x1 x2 x3 x4 x5 x6 x7 x8 x9 x10 x11 x12 x13 (ix3 b s d) = up (mid (lnR (fun k => x1 (ix3 b s k)) (fun e => val_main_v21 (F := Ideal) x0 x10 x11 (ix2 b e)) (fun e => val_main_v25 (F := Ideal) x0 x12 x13 (ix2 b e))) (fun a k => val_main_v4 (F := Ideal) x0 x2 x3 (ix3 b a k)) (fun a => val_main_v8 (F := Ideal) x0 x4 x5 (ix2 b a))) (fun e a => val_main_v13 (F := Ideal) x0 x6 x7 (ix3 b e a)) (fun e => val_main_v17 (F := Ideal) x0 x8 x9 (ix2 b e)) d := by
  rw [val_main_v58_apply, val_main_v55_apply, val_main_v57_apply, val_main_v56_apply, idx56]
  simp only [lidx55, ridx55, L54]
  rfl

/-! ### The second normalization, of the projected row -/

theorem idx67 (k : Fin 512) : idx_main_v67 (idx_main_v68 (ix3 b s o1)) k = ix3 b s k := by
  funext a; match a with | ⟨0, _⟩ => rfl | ⟨1, _⟩ => rfl | ⟨2, _⟩ => rfl

/-- The projected row's mean. -/
theorem L70 : val_main_v70 (F := Ideal) x0 x1 x2 x3 x4 x5 x6 x7 x8 x9 x10 x11 x12 x13 (ix3 b s o1) = mean (fun k => val_main_v58 (F := Ideal) x0 x1 x2 x3 x4 x5 x6 x7 x8 x9 x10 x11 x12 x13 (ix3 b s k)) := by
  rw [val_main_v70_apply, val_main_v68_apply, val_main_v67_apply, val_main_v69_apply, val_main_cst_5_apply, val_main_cst_4_apply]
  simp only [idx67, Ideal.hostDivf_def, Ideal.ofBits_def, Ideal.ofBits_zero_f32, zero_add]
  rfl

theorem idx71 (d : Fin 512) : idx_main_v71 (ix3 b s d) = ix3 b s o1 := by
  funext a; match a with | ⟨0, _⟩ => rfl | ⟨1, _⟩ => rfl | ⟨2, _⟩ => rfl

theorem idx74 (k : Fin 512) : idx_main_v74 (idx_main_v75 (ix3 b s o1)) k = ix3 b s k := by
  funext a; match a with | ⟨0, _⟩ => rfl | ⟨1, _⟩ => rfl | ⟨2, _⟩ => rfl

/-- An entry of the projected row less the row's mean. -/
theorem L72 (d : Fin 512) : val_main_v72 (F := Ideal) x0 x1 x2 x3 x4 x5 x6 x7 x8 x9 x10 x11 x12 x13 (ix3 b s d) = val_main_v58 (F := Ideal) x0 x1 x2 x3 x4 x5 x6 x7 x8 x9 x10 x11 x12 x13 (ix3 b s d) - mean (fun k => val_main_v58 (F := Ideal) x0 x1 x2 x3 x4 x5 x6 x7 x8 x9 x10 x11 x12 x13 (ix3 b s k)) := by
  rw [val_main_v72_apply, val_main_v71_apply, idx71, L70]
  rfl

/-- The projected row's mean square about its mean, plus the small constant. -/
theorem L79 : val_main_v79 (F := Ideal) x0 x1 x2 x3 x4 x5 x6 x7 x8 x9 x10 x11 x12 x13 (ix3 b s o1) = var (fun k => val_main_v58 (F := Ideal) x0 x1 x2 x3 x4 x5 x6 x7 x8 x9 x10 x11 x12 x13 (ix3 b s k)) := by
  rw [val_main_v79_apply, val_main_v77_apply, val_main_v75_apply, val_main_v74_apply, val_main_v76_apply, val_main_cst_7_apply,
    val_main_v78_apply, val_main_cst_8_apply, val_main_cst_6_apply]
  simp only [idx74, val_main_v73_apply, L72, Ideal.hostDivf_def, Ideal.addf_def, Ideal.mulf_def, Ideal.ofBits_def,
    Ideal.ofBits_zero_f32, zero_add]
  rfl

theorem idx80 (d : Fin 512) : idx_main_v80 (ix3 b s d) = ix3 b s o1 := by
  funext a; match a with | ⟨0, _⟩ => rfl | ⟨1, _⟩ => rfl | ⟨2, _⟩ => rfl

theorem idx83 (d : Fin 512) : idx_main_v83 (ix3 b s d) = ix3 b s o1 := by
  funext a; match a with | ⟨0, _⟩ => rfl | ⟨1, _⟩ => rfl | ⟨2, _⟩ => rfl

theorem idx85 (d : Fin 512) : idx_main_v85 (idx_main_v86 (ix3 b s d)) = ix2 b d := by
  funext a; match a with | ⟨0, _⟩ => rfl | ⟨1, _⟩ => rfl

theorem idx88 (d : Fin 512) : idx_main_v88 (idx_main_v89 (ix3 b s d)) = ix2 b d := by
  funext a; match a with | ⟨0, _⟩ => rfl | ⟨1, _⟩ => rfl

/-- The normalized, scaled and shifted projected row. -/
theorem L90 (d : Fin 512) : val_main_v90 (F := Ideal) x0 x1 x2 x3 x4 x5 x6 x7 x8 x9 x10 x11 x12 x13 x14 x15 x16 x17 (ix3 b s d) = lnR (fun k => val_main_v58 (F := Ideal) x0 x1 x2 x3 x4 x5 x6 x7 x8 x9 x10 x11 x12 x13 (ix3 b s k)) (fun e => val_main_v62 (F := Ideal) x0 x14 x15 (ix2 b e)) (fun e => val_main_v66 (F := Ideal) x0 x16 x17 (ix2 b e)) d := by
  rw [val_main_v90_apply, val_main_v87_apply, val_main_v84_apply, val_main_v81_apply, val_main_v80_apply, val_main_v83_apply,
    val_main_v82_apply, val_main_v86_apply, val_main_v85_apply, val_main_v89_apply, val_main_v88_apply,
    idx80, idx83, idx85, idx88, L70, L79]
  rfl

/-- The projected row is the row function's projection of the first normalization. -/
theorem row58 : (fun k => val_main_v58 (F := Ideal) x0 x1 x2 x3 x4 x5 x6 x7 x8 x9 x10 x11 x12 x13 (ix3 b s k)) = up (mid (lnR (fun k => x1 (ix3 b s k)) (fun e => val_main_v21 (F := Ideal) x0 x10 x11 (ix2 b e)) (fun e => val_main_v25 (F := Ideal) x0 x12 x13 (ix2 b e))) (fun a k => val_main_v4 (F := Ideal) x0 x2 x3 (ix3 b a k)) (fun a => val_main_v8 (F := Ideal) x0 x4 x5 (ix2 b a))) (fun e a => val_main_v13 (F := Ideal) x0 x6 x7 (ix3 b e a)) (fun e => val_main_v17 (F := Ideal) x0 x8 x9 (ix2 b e)) :=
  funext fun k => L58 x0 x1 x2 x3 x4 x5 x6 x7 x8 x9 x10 x11 x12 x13 b s k

/-! ### The result -/

/-- The reference's result at (b, s, d) is entry d of the row function of row (b, s). -/
theorem L91 (d : Fin 512) : val_main_v91 (F := Ideal) x0 x1 x2 x3 x4 x5 x6 x7 x8 x9 x10 x11 x12 x13 x14 x15 x16 x17 (ix3 b s d)
    = rowR (fun k => x1 (ix3 b s k)) (fun a k => val_main_v4 (F := Ideal) x0 x2 x3 (ix3 b a k)) (fun a => val_main_v8 (F := Ideal) x0 x4 x5 (ix2 b a)) (fun e a => val_main_v13 (F := Ideal) x0 x6 x7 (ix3 b e a)) (fun e => val_main_v17 (F := Ideal) x0 x8 x9 (ix2 b e)) (fun e => val_main_v21 (F := Ideal) x0 x10 x11 (ix2 b e)) (fun e => val_main_v25 (F := Ideal) x0 x12 x13 (ix2 b e)) (fun e => val_main_v62 (F := Ideal) x0 x14 x15 (ix2 b e)) (fun e => val_main_v66 (F := Ideal) x0 x16 x17 (ix2 b e)) d := by
  rw [val_main_v91_apply, L90, row58]
  rfl

theorem ref_eq_G :
    val_main_v91 (F := Ideal) x0 x1 x2 x3 x4 x5 x6 x7 x8 x9 x10 x11 x12 x13 x14 x15 x16 x17
      = G x1 (val_main_v4 (F := Ideal) x0 x2 x3) (val_main_v8 (F := Ideal) x0 x4 x5) (val_main_v13 (F := Ideal) x0 x6 x7)
          (val_main_v17 (F := Ideal) x0 x8 x9) (val_main_v21 (F := Ideal) x0 x10 x11) (val_main_v25 (F := Ideal) x0 x12 x13)
          (val_main_v62 (F := Ideal) x0 x14 x15) (val_main_v66 (F := Ideal) x0 x16 x17) := by
  funext j
  obtain ⟨b, s, d, rfl⟩ : ∃ (b : Fin 32) (s : Fin 2048) (d : Fin 512), j = ix3 b s d := ⟨j 0, j 1, j 2, eq_ix3 j⟩
  rw [G_apply, L91]
  rfl

end Cert.ReferenceIdeal.RefValue

end
-- ==== Proof.lean ====
/-
  The adapter kernel against its reference, on the extended reals.

  Both programs first build, per sample, a down matrix, an up matrix, their two biases and the scales and shifts of
  two row normalizations, each as the sample's embedding times a weight matrix plus a bias: the same host
  operations on both sides.  The reference then normalizes every row of the input, projects it down, rectifies,
  projects it up, normalizes again and adds the row.  The kernel packs the six parameter rows of a sample into one
  [8, 512] block and runs a 32 x 2 grid, each point doing the same to a tile of 1024 rows of one sample; its matrices
  are rounded to a shorter format, which is the identity on the extended reals.  The one arithmetic difference is that
  the kernel multiplies by the reciprocal root where the reference divides by the root; the quantity under the root is
  positive, so the two agree (module RowSpec), and the claim needs nothing of the inputs.

  The frames: each program runs to the end and writes no argument array; for the two kernel programs this is the
  grid's run on the body's triple (modules KernelFrame and KernelIdealFrame), for the reference its run of host
  operations.
-/
import proofs.«128579_j51539607552027_2_alg».proof.Defs
import proofs.«128579_j51539607552027_2_alg».proof.Proof.Gen.Kernel
import proofs.«128579_j51539607552027_2_alg».proof.Proof.Gen.KernelIdeal
import proofs.«128579_j51539607552027_2_alg».proof.Proof.Gen.ReferenceIdeal
import proofs.«128579_j51539607552027_2_alg».proof.Proof.Gen.Pre_finite_inputs
import proofs.«128579_j51539607552027_2_alg».proof.Proof.Gen.ReferenceIdeal.Run
import proofs.«128579_j51539607552027_2_alg».proof.Proof.Gen.ReferenceIdeal.Read
import proofs.«128579_j51539607552027_2_alg».proof.Proof.KernelFrame
import proofs.«128579_j51539607552027_2_alg».proof.Proof.KernelValue
import proofs.«128579_j51539607552027_2_alg».proof.Proof.KernelHost
import proofs.«128579_j51539607552027_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx Cert.Adapter

theorem frame_k : Cert.frame_Kernel := fun m ρ _ => Cert.Kernel.Frame.frame m ρ
theorem frame_ki : Cert.frame_KernelIdeal := fun m ρ _ => Cert.KernelIdeal.Frame.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The common result: `G` of the input array and of the eight parameter arrays, these as the reference's
    stages of the argument arrays. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v47) :=
  G (m ((c.tc : Thread Cert.KernelIdeal.nD Cert.KernelIdeal.τ).loc Cert.KernelIdeal.main_arg1)) (Cert.ReferenceIdeal.Read.val_main_v4 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (Cert.ReferenceIdeal.Read.val_main_v8 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (Cert.ReferenceIdeal.Read.val_main_v13 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (Cert.ReferenceIdeal.Read.val_main_v17 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (Cert.ReferenceIdeal.Read.val_main_v21 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) (Cert.ReferenceIdeal.Read.val_main_v25 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) (Cert.ReferenceIdeal.Read.val_main_v62 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) (Cert.ReferenceIdeal.Read.val_main_v66 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)))

/-- The arrays the kernel's grid reads are those parameter arrays. -/
theorem params (m : (ℓ : Loc Cert.KernelIdeal.nD Cert.KernelIdeal.τ Cert.KernelIdeal.sig) → Buf (Elt Ideal) ℓ) (c : Dev Cert.KernelIdeal.nD) :
    Cert.KernelIdeal.KValue.Params m (Cert.ReferenceIdeal.Read.val_main_v4 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (Cert.ReferenceIdeal.Read.val_main_v8 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (Cert.ReferenceIdeal.Read.val_main_v13 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (Cert.ReferenceIdeal.Read.val_main_v17 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (Cert.ReferenceIdeal.Read.val_main_v21 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) (Cert.ReferenceIdeal.Read.val_main_v25 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) (Cert.ReferenceIdeal.Read.val_main_v62 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) (Cert.ReferenceIdeal.Read.val_main_v66 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) c where
  wd := fun b a k => congrFun (Cert.KernelIdeal.HostSide.V_wd m c) (ix3 b a k)
  wu := fun b d a => congrFun (Cert.KernelIdeal.HostSide.V_wu m c) (ix3 b d a)
  bd := Cert.KernelIdeal.HostSide.V_bd m c
  bu := Cert.KernelIdeal.HostSide.V_bu m c
  prew := Cert.KernelIdeal.HostSide.V_prew m c
  preb := Cert.KernelIdeal.HostSide.V_preb m c
  postw := Cert.KernelIdeal.HostSide.V_postw m c
  postb := Cert.KernelIdeal.HostSide.V_postb m c

/-- Both programs end with the result array at `result`: the kernel's by the grid's run read block by block, the
    reference's by its run read stage by stage, from memories that agree on the arguments. -/
theorem algebraic : Cert.algebraic_KernelIdeal_ReferenceIdeal := by
  intro m ρ m' ρ' _ hagree
  refine ⟨result m, ?_, ?_⟩
  · exact (θ_run Cert.KernelIdeal.defs _ _).mono
      (fun _ h c => ⟨(h c).1.trans (Cert.KernelIdeal.KValue.final m _ _ _ _ _ _ _ _ c (params m c)), (h c).2⟩)
      (Cert.KernelIdeal.Frame.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17⟩ := hagree c
    rw [Cert.ReferenceIdeal.Read.val_main_v91_eq, Cert.ReferenceIdeal.RefValue.ref_eq_G, h0, h1, h2, h3, h4, h5, h6, h7, h8, h9, h10, h11, h12, h13, h14, h15, h16, h17]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
